-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S3072x1024 : Shape := ⟨2, ![3072, 1024]⟩
abbrev S3072 : Shape := ⟨1, ![3072]⟩
abbrev S1024x3072 : Shape := ⟨2, ![1024, 3072]⟩
abbrev S1x3072 : Shape := ⟨2, ![1, 3072]⟩
abbrev S8192x1024 : Shape := ⟨2, ![8192, 1024]⟩
abbrev S8192x3072 : Shape := ⟨2, ![8192, 3072]⟩
abbrev S1x1024 : Shape := ⟨2, ![1, 1024]⟩
abbrev S4x2048x3072 : Shape := ⟨3, ![4, 2048, 3072]⟩
abbrev S1x512x1024 : Shape := ⟨3, ![1, 512, 1024]⟩
abbrev S1x2048x1024 : Shape := ⟨3, ![1, 2048, 1024]⟩
abbrev S512x1024 : Shape := ⟨2, ![512, 1024]⟩
abbrev S2048x1024 : Shape := ⟨2, ![2048, 1024]⟩
abbrev S512x2048 : Shape := ⟨2, ![512, 2048]⟩
abbrev S512 : Shape := ⟨1, ![512]⟩
abbrev S512x1 : Shape := ⟨2, ![512, 1]⟩

abbrev nBuf : Space → Nat
  | .hbm => 24
  | .vmem => 18
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S3072x1024, .f32⟩
  | .hbm, ⟨10, _⟩ => ⟨S3072, .f32⟩
  | .hbm, ⟨11, _⟩ => ⟨S1024x3072, .f32⟩
  | .hbm, ⟨12, _⟩ => ⟨S1024x3072, .bf16⟩
  | .hbm, ⟨13, _⟩ => ⟨S1x3072, .f32⟩
  | .hbm, ⟨14, _⟩ => ⟨S8192x1024, .f32⟩
  | .hbm, ⟨15, _⟩ => ⟨S8192x3072, .bf16⟩
  | .hbm, ⟨16, _⟩ => ⟨S4x2048x3072, .bf16⟩
  | .hbm, ⟨17, _⟩ => ⟨S4x2048x1024, .bf16⟩
  | .hbm, ⟨18, _⟩ => ⟨S4x2048x1024, .bf16⟩
  | .hbm, ⟨19, _⟩ => ⟨S4x2048x1024, .bf16⟩
  | .hbm, ⟨20, _⟩ => ⟨S1024x1024, .f32⟩
  | .hbm, ⟨21, _⟩ => ⟨S1024x1024, .bf16⟩
  | .hbm, ⟨22, _⟩ => ⟨S1x1024, .f32⟩
  | .hbm, ⟨23, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x2048x1024, .bf16⟩
  | .local _ .vmem, ⟨11, _⟩ => ⟨S1x2048x1024, .bf16⟩
  | .local _ .vmem, ⟨12, _⟩ => ⟨S1x2048x1024, .bf16⟩
  | .local _ .vmem, ⟨13, _⟩ => ⟨S1x2048x1024, .bf16⟩
  | .local _ .vmem, ⟨14, _⟩ => ⟨S1024x1024, .bf16⟩
  | .local _ .vmem, ⟨15, _⟩ => ⟨S1x1024, .f32⟩
  | .local _ .vmem, ⟨16, _⟩ => ⟨S1x512x1024, .f32⟩
  | .local _ .vmem, ⟨17, _⟩ => ⟨S1x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  concatenates_S1024x1024_S1024x1024_S1024x1024_S3072x1024_d0 : Shape.Concatenates [S1024x1024, S1024x1024, S1024x1024] S3072x1024 0
  concatenates_S1024_S1024_S1024_S3072_d0 : Shape.Concatenates [S1024, S1024, S1024] S3072 0
  transposes_S3072x1024_S1024x3072_1_0 : S3072x1024.Transposes [1, 0] S1024x3072
  bitsLt_bf16_f32 : FTy.bits .bf16 < FTy.bits .f32
  shapeCasts_S3072_S1x3072 : S3072.ShapeCasts S1x3072
  shapeCasts_S4x2048x1024_S8192x1024 : S4x2048x1024.ShapeCasts S8192x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S8192x3072_S4x2048x3072 : S8192x3072.ShapeCasts S4x2048x3072
  slices_S4x2048x3072_S4x2048x1024_0_0_0 : S4x2048x3072.Slices ![0, 0, 0] S4x2048x1024
  slices_S4x2048x3072_S4x2048x1024_0_0_1024 : S4x2048x3072.Slices ![0, 0, 1024] S4x2048x1024
  slices_S4x2048x3072_S4x2048x1024_0_0_2048 : S4x2048x3072.Slices ![0, 0, 2048] S4x2048x1024
  transposes_S1024x1024_S1024x1024_1_0 : S1024x1024.Transposes [1, 0] S1024x1024
  shapeCasts_S1024_S1x1024 : S1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S512x2048_S512 : S512x2048.Reduces [1] S512
  shapeCasts_S512_S512x1 : S512.ShapeCasts S512x1
  broadcasts_S512x1_S512x2048 : S512x1.Broadcasts S512x2048
  broadcasts_S1x1024_S512x1024 : S1x1024.Broadcasts S512x1024
  shapeCasts_S512x1024_S1x512x1024 : S512x1024.ShapeCasts S1x512x1024
  dot_S1024x1024_S1024x1024_S1024x1024_1_0_0_1_n_n_wf : DotDims.WF S1024x1024 S1024x1024 S1024x1024 [1] [0] [0] [1] [] []
  dot_S512x1024_S2048x1024_S512x2048_1_1_0_0_n_n_wf : DotDims.WF S512x1024 S2048x1024 S512x2048 [1] [1] [0] [0] [] []
  dot_S512x2048_S2048x1024_S512x1024_1_0_0_1_n_n_wf : DotDims.WF S512x2048 S2048x1024 S512x1024 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x3072.size a
  hwx0_1 : ∀ i : grid0.Coords, EltTy.bits .bf16 = 32 ∨ (Rect.block (s := S1024x3072) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x3072.size a
  hwx0_2 : ∀ i : grid0.Coords, EltTy.bits .f32 = 32 ∨ (Rect.block (s := S1x3072) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x3072.size a
  hwx0_3 : ∀ i : grid0.Coords, EltTy.bits .bf16 = 32 ∨ (Rect.block (s := S8192x3072) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x2048x1024.size a
  hwx1_0 : ∀ i : grid1.Coords, EltTy.bits .bf16 = 32 ∨ (Rect.block (s := S4x2048x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x1024.size a
  hwx1_1 : ∀ i : grid1.Coords, EltTy.bits .bf16 = 32 ∨ (Rect.block (s := S4x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x1024.size a
  hwx1_2 : ∀ i : grid1.Coords, EltTy.bits .bf16 = 32 ∨ (Rect.block (s := S4x2048x1024) S1x2048x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x1024.size a ≤ S4x2048x1024.size a
  hwx1_5 : ∀ i : grid1.Coords, EltTy.bits .f32 = 32 ∨ (Rect.block (s := S4x2048x1024) S1x512x1024.size (cc1_transform_5 i) (hinb1_5 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v5) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v8) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S1x512x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S4x2048x2048 : Shape := ⟨3, ![4, 2048, 2048]⟩
abbrev S4x2048 : Shape := ⟨2, ![4, 2048]⟩
abbrev S4x2048x1 : Shape := ⟨3, ![4, 2048, 1]⟩

abbrev nBuf : Space → Nat
  | .hbm => 47
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4x2048x1024, .f32⟩
  | .hbm, ⟨10, _⟩ => ⟨S1x1x1024, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S1x1x1024, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4x2048x2048, .f32⟩
  | .hbm, ⟨26, _⟩ => ⟨S4x2048x2048, .f32⟩
  | .hbm, ⟨27, _⟩ => ⟨S4x2048x2048, .f32⟩
  | .hbm, ⟨28, _⟩ => ⟨S_, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S4x2048, .f32⟩
  | .hbm, ⟨33, _⟩ => ⟨S4x2048x1, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S_, .f32⟩
  | .hbm, ⟨38, _⟩ => ⟨S4x2048, .f32⟩
  | .hbm, ⟨39, _⟩ => ⟨S4x2048x1, .f32⟩
  | .hbm, ⟨40, _⟩ => ⟨S4x2048x2048, .f32⟩
  | .hbm, ⟨41, _⟩ => ⟨S4x2048x2048, .f32⟩
  | .hbm, ⟨42, _⟩ => ⟨S4x2048x1024, .f32⟩
  | .hbm, ⟨43, _⟩ => ⟨S4x2048x1024, .f32⟩
  | .hbm, ⟨44, _⟩ => ⟨S1x1x1024, .f32⟩
  | .hbm, ⟨45, _⟩ => ⟨S4x2048x1024, .f32⟩
  | .hbm, ⟨46, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.KernelFrameR0.lean ====
/-
  The first region — the fused projection kernel over an 8 × 3 grid — at the buffer contents V it is entered from, for the word-level program (stated at any float instance):
  the block of each window at a grid point; what the body leaves in the output staging buffer (its one stored value,
  a function of the three loaded blocks); the body run on whole staging buffers; the pipeline's proof data (each input
  buffer holds its block, the output buffer the stored value); the body obligation at every grid point.
-/
import proofs.«166768_j20882130993308_2_alg».proof.Proof.Gen.Kernel.Launch
import proofs.«166768_j20882130993308_2_alg».proof.Proof.Gen.Kernel.Skeleton
import proofs.«166768_j20882130993308_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the structural check recurses once per coordinate of the long axes
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 of @main: the first kernel call (matrix product plus bias, rounded to bf16), at the entry contents `V` -/

-- the core's buffer contents when the region is entered: the parameter this half is stated at
variable (V : (c : Dev nD) → (b : Ref sig .tc) → Buf (Elt F) ((c : Thread nD τ).loc b))

/-! ## The windows' blocks -/

/-- Window `w`'s block at grid point `t` of the first kernel call, read off its array at the region-entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every grid point, whether or not the window is
    fetched there (where it is not, its block index has not moved since the last fetch), for any proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every grid point, whether or not the window is
    fetched there (where it is not, its block index has not moved since the last fetch), for any proof data whose
    array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every grid point, whether or not the window is
    fetched there (where it is not, its block index has not moved since the last fetch), for any proof data whose
    array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 1024x1024 buffer as a rectangle: what the body loads from windows 0 and 1 and stores into window 3. -/
abbrev r0_a : Rect S1024x1024 := Rect.unit (s := S1024x1024) ![0, 0] S1024x1024.size inb_S1024x1024_S1024x1024_0_0
/-- The whole 1x1024 buffer as a rectangle: what the body loads from window 2. -/
abbrev r0_b : Rect S1x1024 := Rect.unit (s := S1x1024) ![0, 0] S1x1024.size inb_S1x1024_S1x1024_0_0

/-! ## What the body leaves in the output window's buffer -/

/-- Window 3's staging buffer after the body, as a function of the three input blocks: its one whole-buffer store,
    whose value is the body's payload on the three whole-buffer loads. -/
def out0_3 (x0 : Vec F S1024x1024 .f32) (x1 : Vec F S1024x1024 .bf16) (x2 : Vec F S1x1024 .f32) : Vec F S1024x1024 .bf16 :=
  View.canon [⟨r0_a, k0_pay1 (View.ld x0 r0_a) (View.ld x1 r0_a) (View.ld x2 r0_b)⟩]

/-- The one store covers the whole buffer. -/
theorem cover0_3 (p0 : Vec F S1024x1024 .bf16) (y : S1024x1024.Idx) :
    ∃ pc ∈ ([⟨r0_a, p0⟩] : List (View.Piece (Elt F) S1024x1024 .bf16)), y ∈ pc.1.set :=
  View.cover_of_tiled [⟨r0_a, p0⟩] S1024x1024.size (by rfl) y

/-! ## The body's triple -/

set_option maxHeartbeats 1000000 in
/-- The kernel body on whole staging memrefs, the inputs' holding `x0`, `x1`, `x2` and the output's anything, runs to
    the continuation with the inputs' unchanged and the output's holding `out0_3 x0 x1 x2`. -/
theorem sound_kernel0 (c : Dev nD) (E : Set ℕ) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole)
    (x0 : Vec F S1024x1024 .f32) (x1 : Vec F S1024x1024 .bf16) (x2 : Vec F S1x1024 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0_matmul_bias_kernel i arg2 harg2 arg3 harg3 arg4 harg4 arg5 harg5) K := by
  simp only [cc0_matmul_bias_kernel_eq_skeleton]; unfold cc0_matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the first kernel call on core `c`: the arrays at the region-entry contents `V`; after the body
    at point `t` each input's buffer holds its block and the output's holds `out0_3` of the three input blocks; the
    invariant is the scoped rest and the generator register, untouched; nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- After the body, input window 0's buffer holds its block. -/
theorem after0_0 (c : Dev nD) (t : Fin cfg0.N) : (dat0 V c).after 0 t = iblk0 V c 0 t := by dsimp only [dat0]
/-- After the body, input window 1's buffer holds its block. -/
theorem after0_1 (c : Dev nD) (t : Fin cfg0.N) : (dat0 V c).after 1 t = iblk0 V c 1 t := by dsimp only [dat0]
/-- After the body, input window 2's buffer holds its block. -/
theorem after0_2 (c : Dev nD) (t : Fin cfg0.N) : (dat0 V c).after 2 t = iblk0 V c 2 t := by dsimp only [dat0]
/-- After the body, the output window's buffer holds `out0_3` of the three input blocks. -/
theorem after0_3 (c : Dev nD) (t : Fin cfg0.N) : (dat0 V c).after 3 t = out0_3 (iblk0 V c 0 t) (iblk0 V c 1 t) (iblk0 V c 2 t) := by dsimp only [dat0]

/-- Before the body, input window 0's current buffer holds its block, at every point. -/
theorem before0_0 (c : Dev nD) (t : Fin cfg0.N) (d) : (dat0 V c).before 0 t d = iblk0 V c 0 t :=
  before0_0_of V (dat0 V c) (A_eq0 V c 0) (after0_0 V c) t d
/-- Before the body, input window 1's current buffer holds its block, at every point. -/
theorem before0_1 (c : Dev nD) (t : Fin cfg0.N) (d) : (dat0 V c).before 1 t d = iblk0 V c 1 t :=
  before0_1_of V (dat0 V c) (A_eq0 V c 1) (after0_1 V c) t d
/-- Before the body, input window 2's current buffer holds its block, at every point. -/
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, the core's dues, and each window's current staging
    buffer at what the pipeline left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What the body returns at point `t`: the same, each buffer at what the proof data say the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point takes `bodyPre0` to `bodyPost0`: the inputs' buffers hold their blocks, so the body's
    triple applies; the invariant and the dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the first kernel call's pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.KernelFrameR1.lean ====
/-
  The second region — the attention kernel with the output projection over a 4 × 4 grid — at the buffer contents V it
  is entered from, for the word-level program (stated at any float instance): the block of each of its six windows at a grid point (two of the inputs are fetched once, into a
  single staging buffer); what the body leaves in the output staging buffer (its one stored value, a function of the
  five loaded blocks); the body run on whole staging buffers; the pipeline's proof data; the body obligation at every
  grid point.
-/
import proofs.«166768_j20882130993308_2_alg».proof.Proof.Gen.Kernel.Launch
import proofs.«166768_j20882130993308_2_alg».proof.Proof.Gen.Kernel.Skeleton
import proofs.«166768_j20882130993308_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the structural check recurses once per coordinate of the long axes
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 of @main: the second kernel call (attention over one query tile, then the output projection), at the entry contents `V` -/

-- the core's buffer contents when the region is entered: the parameter this half is stated at
variable (V : (c : Dev nD) → (b : Ref sig .tc) → Buf (Elt F) ((c : Thread nD τ).loc b))

/-! ## The windows' blocks -/

/-- Window `w`'s block at grid point `t` of the second kernel call, read off its array at the region-entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every grid point, whether or not the window is
    fetched there (where it is not, its block index has not moved since the last fetch), for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every grid point, whether or not the window is
    fetched there (where it is not, its block index has not moved since the last fetch), for any proof data whose
    array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every grid point, whether or not the window is
    fetched there (where it is not, its block index has not moved since the last fetch), for any proof data whose
    array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every grid point, whether or not the window is
    fetched there (where it is not, its block index has not moved since the last fetch), for any proof data whose
    array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every grid point, whether or not the window is
    fetched there (where it is not, its block index has not moved since the last fetch), for any proof data whose
    array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 1x512x1024 buffer as a rectangle: what the body loads from window 0 and stores into window 5. -/
abbrev r1_a : Rect S1x512x1024 := Rect.unit (s := S1x512x1024) ![0, 0, 0] S1x512x1024.size inb_S1x512x1024_S1x512x1024_0_0_0
/-- The whole 1x2048x1024 buffer as a rectangle: what the body loads from windows 1 and 2. -/
abbrev r1_b : Rect S1x2048x1024 := Rect.unit (s := S1x2048x1024) ![0, 0, 0] S1x2048x1024.size inb_S1x2048x1024_S1x2048x1024_0_0_0
/-- The whole 1024x1024 buffer as a rectangle: what the body loads from window 3. -/
abbrev r1_c : Rect S1024x1024 := Rect.unit (s := S1024x1024) ![0, 0] S1024x1024.size inb_S1024x1024_S1024x1024_0_0
/-- The whole 1x1024 buffer as a rectangle: what the body loads from window 4. -/
abbrev r1_d : Rect S1x1024 := Rect.unit (s := S1x1024) ![0, 0] S1x1024.size inb_S1x1024_S1x1024_0_0

/-! ## What the body leaves in the output window's buffer -/

/-- Window 5's staging buffer after the body, as a function of the five input blocks: its one whole-buffer store,
    whose value is the body's payload on the five whole-buffer loads. -/
def out1_5 (x0 : Vec F S1x512x1024 .bf16) (x1 x2 : Vec F S1x2048x1024 .bf16) (x3 : Vec F S1024x1024 .bf16) (x4 : Vec F S1x1024 .f32) : Vec F S1x512x1024 .f32 :=
  View.canon [⟨r1_a, k1_pay1 (View.ld x0 r1_a) (View.ld x1 r1_b) (View.ld x2 r1_b) (View.ld x3 r1_c) (View.ld x4 r1_d)⟩]

/-- The one store covers the whole buffer. -/
theorem cover1_5 (p0 : Vec F S1x512x1024 .f32) (y : S1x512x1024.Idx) :
    ∃ pc ∈ ([⟨r1_a, p0⟩] : List (View.Piece (Elt F) S1x512x1024 .f32)), y ∈ pc.1.set :=
  View.cover_of_tiled [⟨r1_a, p0⟩] S1x512x1024.size (by rfl) y

/-! ## The body's triple -/

set_option maxHeartbeats 1000000 in
/-- The kernel body on whole staging memrefs, the inputs' holding `x0` … `x4` and the output's anything, runs to
    the continuation with the inputs' unchanged and the output's holding `out1_5 x0 x1 x2 x3 x4`. -/
theorem sound_kernel1 (c : Dev nD) (E : Set ℕ) (i : grid1.Coords) (arg2 : Memref sig .tc .vmem S1x512x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x512x1024 .f32) (harg7 : arg7.IsWhole)
    (x0 : Vec F S1x512x1024 .bf16) (x1 x2 : Vec F S1x2048x1024 .bf16) (x3 : Vec F S1024x1024 .bf16) (x4 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out1_5 x0 x1 x2 x3 x4)) -∗ K ⟨⟩))
      ⊢ wp frame (wpE (defs₀ (F := F)) Variants.none c none) E (cc1_attn_proj_kernel i arg2 harg2 arg3 harg3 arg4 harg4 arg5 harg5 arg6 harg6 arg7 harg7) K := by
  simp only [cc1_attn_proj_kernel_eq_skeleton]; unfold cc1_attn_proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the second kernel call on core `c`: the arrays at the region-entry contents `V`; after the body
    at point `t` each input's buffer holds its block and the output's holds `out1_5` of the five input blocks; the
    invariant is the scoped rest and the generator register, untouched; nothing is owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- After the body, input window 0's buffer holds its block. -/
theorem after1_0 (c : Dev nD) (t : Fin cfg1.N) : (dat1 V c).after 0 t = iblk1 V c 0 t := by dsimp only [dat1]
/-- After the body, input window 1's buffer holds its block. -/
theorem after1_1 (c : Dev nD) (t : Fin cfg1.N) : (dat1 V c).after 1 t = iblk1 V c 1 t := by dsimp only [dat1]
/-- After the body, input window 2's buffer holds its block. -/
theorem after1_2 (c : Dev nD) (t : Fin cfg1.N) : (dat1 V c).after 2 t = iblk1 V c 2 t := by dsimp only [dat1]
/-- After the body, input window 3's buffer holds its block. -/
theorem after1_3 (c : Dev nD) (t : Fin cfg1.N) : (dat1 V c).after 3 t = iblk1 V c 3 t := by dsimp only [dat1]
/-- After the body, input window 4's buffer holds its block. -/
theorem after1_4 (c : Dev nD) (t : Fin cfg1.N) : (dat1 V c).after 4 t = iblk1 V c 4 t := by dsimp only [dat1]
/-- After the body, the output window's buffer holds `out1_5` of the five input blocks. -/
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Before the body, input window 0's current buffer holds its block, at every point. -/
theorem before1_0 (c : Dev nD) (t : Fin cfg1.N) (d) : (dat1 V c).before 0 t d = iblk1 V c 0 t :=
  before1_0_of V (dat1 V c) (A_eq1 V c 0) (after1_0 V c) t d
/-- Before the body, input window 1's current buffer holds its block, at every point. -/
theorem before1_1 (c : Dev nD) (t : Fin cfg1.N) (d) : (dat1 V c).before 1 t d = iblk1 V c 1 t :=
  before1_1_of V (dat1 V c) (A_eq1 V c 1) (after1_1 V c) t d
/-- Before the body, input window 2's current buffer holds its block, at every point. -/
theorem before1_2 (c : Dev nD) (t : Fin cfg1.N) (d) : (dat1 V c).before 2 t d = iblk1 V c 2 t :=
  before1_2_of V (dat1 V c) (A_eq1 V c 2) (after1_2 V c) t d
/-- Before the body, input window 3's current buffer holds its block, at every point. -/
theorem before1_3 (c : Dev nD) (t : Fin cfg1.N) (d) : (dat1 V c).before 3 t d = iblk1 V c 3 t :=
  before1_3_of V (dat1 V c) (A_eq1 V c 3) (after1_3 V c) t d
/-- Before the body, input window 4's current buffer holds its block, at every point. -/
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`: the invariant, the core's dues, and each window's current staging
    buffer at what the pipeline left in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What the body returns at point `t`: the same, each buffer at what the proof data say the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point takes `bodyPre1` to `bodyPost1`: the inputs' buffers hold their blocks, so the body's
    triple applies; the invariant and the dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the second kernel call's pipeline, at every point. -/
theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.KernelFrame.lean ====
/-
  The program's run from launch to return, for the word-level program (stated at any float instance): the buffer contents at each boundary — the launch memory; after the
  first stretch of host operations; after the first region (its output array at what its write-backs leave, every other
  buffer as entered); after the second stretch; after the second region —; each argument array read back unchanged
  through them (no host operation and no region writes an argument); the two regions as segments entered from and left
  at those contents; every weakly fair execution terminates, faulting nowhere, with every unscoped buffer at the last
  contents; hence the frame.
-/
import proofs.«166768_j20882130993308_2_alg».proof.Proof.KernelFrameR0
import proofs.«166768_j20882130993308_2_alg».proof.Proof.KernelFrameR1

-- membership in a rectangle of large extents: the structural check recurses once per coordinate of the long axes
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: host operations, the first kernel call, host operations, the second kernel call

## The buffer contents at each boundary of @main -/

/-- Core `c`'s buffers at launch. -/
abbrev W0 : Dev nD → Valuation τ sig (Elt F) := fun c b => (s₀ m ρ).mem ((c : Dev nD), b)
/-- Core `c`'s buffers after the first stretch of host operations: the first kernel call's entry. -/
abbrev W1 : Dev nD → Valuation τ sig (Elt F) := fun c => StableHlo.after hostOps0 (W0 m ρ c)
/-- The same, read at the core's references. -/
abbrev V1 : (c : Dev nD) → (b : Ref sig .tc) → Buf (Elt F) ((c : Thread nD τ).loc b) := fun c b => W1 m ρ c b
/-- Core `c`'s buffers at the first kernel call's exit: its windows' arrays at what the pipeline leaves (an input as
    entered, the output at its write-backs folded over the grid), every other buffer as entered. -/
def W2 (c : Dev nD) : Valuation τ sig (Elt F) :=
  Pipeline.withArrays spec0 c (W1 m ρ c) fun w => (dat0 (V1 m ρ) c).arrAt w cfg0.N
/-- At the first kernel call's exit, window `w`'s array holds what the pipeline leaves in it. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- At the first kernel call's exit, a buffer that is no window's array holds what it held at entry. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The first kernel call's exit contents, read at the core's references. -/
abbrev V2 : (c : Dev nD) → (b : Ref sig .tc) → Buf (Elt F) ((c : Thread nD τ).loc b) := fun c b => W2 m ρ c b
/-- The exit contents at a window's array are what the pipeline leaves there. -/
theorem hF0 (c : Dev nD) (w : Fin cfg0.W) : (dat0 (V1 m ρ) c).arrAt w cfg0.N = V2 m ρ c (Pipeline.arrRef spec0 w) :=
  (W2_arr m ρ c w).symm
/-- The exit contents off the windows' arrays are the entry contents. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- Core `c`'s buffers after the second stretch of host operations: the second kernel call's entry. -/
abbrev W3 : Dev nD → Valuation τ sig (Elt F) := fun c => StableHlo.after hostOps1 (W2 m ρ c)
/-- The same, read at the core's references. -/
abbrev V3 : (c : Dev nD) → (b : Ref sig .tc) → Buf (Elt F) ((c : Thread nD τ).loc b) := fun c b => W3 m ρ c b
/-- Core `c`'s buffers at the second kernel call's exit, which is @main's return: its windows' arrays at what the
    pipeline leaves, every other buffer as entered. -/
def W4 (c : Dev nD) : Valuation τ sig (Elt F) :=
  Pipeline.withArrays spec1 c (W3 m ρ c) fun w => (dat1 (V3 m ρ) c).arrAt w cfg1.N
/-- At the second kernel call's exit, window `w`'s array holds what the pipeline leaves in it. -/
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
/-- At the second kernel call's exit, a buffer that is no window's array holds what it held at entry. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The second kernel call's exit contents, read at the core's references. -/
abbrev V4 : (c : Dev nD) → (b : Ref sig .tc) → Buf (Elt F) ((c : Thread nD τ).loc b) := fun c b => W4 m ρ c b
/-- The exit contents at a window's array are what the pipeline leaves there. -/
theorem hF1 (c : Dev nD) (w : Fin cfg1.W) : (dat1 (V3 m ρ) c).arrAt w cfg1.N = V4 m ρ c (Pipeline.arrRef spec1 w) :=
  (W4_arr m ρ c w).symm
/-- The exit contents off the windows' arrays are the entry contents. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## What the host operations write -/

/-- The references the first stretch of host operations writes. -/
abbrev host0_W : List (Ref sig .tc) := [main_v0, main_v1, main_v2, main_v3, main_v4, main_v5]
/-- Every operation of the first stretch writes one of them. -/
theorem host0_writes : (hostOps0 : List (HloOp τ sig (Elt F))).Forall fun op => op.writes ⊆ (host0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The references the second stretch of host operations writes. -/
abbrev host1_W : List (Ref sig .tc) := [main_v7, main_v8, main_v9, main_v10, main_v11, main_v12, main_v13]
/-- Every operation of the second stretch writes one of them. -/
theorem host1_writes : (hostOps1 : List (HloOp τ sig (Elt F))).Forall fun op => op.writes ⊆ (host1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the first stretch does not write holds after it what it held at launch. -/
theorem W1_of (c : Dev nD) (r : Ref sig .tc) (h : r ∉ host0_W) : W1 m ρ c (Proc.devRef .tc r) = W0 m ρ c (Proc.devRef .tc r) :=
  StableHlo.after_of_writes_sub hostOps0 _ host0_writes h
/-- A buffer the second stretch does not write holds after it what it held at the first kernel call's exit. -/
theorem W3_of (c : Dev nD) (r : Ref sig .tc) (h : r ∉ host1_W) : W3 m ρ c (Proc.devRef .tc r) = W2 m ρ c (Proc.devRef .tc r) :=
  StableHlo.after_of_writes_sub hostOps1 _ host1_writes h

/-! ## The arguments end as launched -/

/-- `main_arg0` ends as launched: no host operation writes it and it is no window's array of either kernel call. -/
theorem W4_main_arg0 (c : Dev nD) : W4 m ρ c (Proc.devRef .tc main_arg0) = m ((c : Thread nD τ).loc main_arg0) :=
  (W4_of_ne m ρ c main_arg0 (by decide)).trans <| (W3_of m ρ c main_arg0 (by decide)).trans <|
    (W2_of_ne m ρ c main_arg0 (by decide)).trans <| (W1_of m ρ c main_arg0 (by decide)).trans rfl
/-- `main_arg1` ends as launched: no host operation writes it and it is no window's array of either kernel call. -/
theorem W4_main_arg1 (c : Dev nD) : W4 m ρ c (Proc.devRef .tc main_arg1) = m ((c : Thread nD τ).loc main_arg1) :=
  (W4_of_ne m ρ c main_arg1 (by decide)).trans <| (W3_of m ρ c main_arg1 (by decide)).trans <|
    (W2_of_ne m ρ c main_arg1 (by decide)).trans <| (W1_of m ρ c main_arg1 (by decide)).trans rfl
/-- `main_arg2` ends as launched: no host operation writes it and it is no window's array of either kernel call. -/
theorem W4_main_arg2 (c : Dev nD) : W4 m ρ c (Proc.devRef .tc main_arg2) = m ((c : Thread nD τ).loc main_arg2) :=
  (W4_of_ne m ρ c main_arg2 (by decide)).trans <| (W3_of m ρ c main_arg2 (by decide)).trans <|
    (W2_of_ne m ρ c main_arg2 (by decide)).trans <| (W1_of m ρ c main_arg2 (by decide)).trans rfl
/-- `main_arg3` ends as launched: no host operation writes it and it is no window's array of either kernel call. -/
theorem W4_main_arg3 (c : Dev nD) : W4 m ρ c (Proc.devRef .tc main_arg3) = m ((c : Thread nD τ).loc main_arg3) :=
  (W4_of_ne m ρ c main_arg3 (by decide)).trans <| (W3_of m ρ c main_arg3 (by decide)).trans <|
    (W2_of_ne m ρ c main_arg3 (by decide)).trans <| (W1_of m ρ c main_arg3 (by decide)).trans rfl
/-- `main_arg4` ends as launched: no host operation writes it and it is no window's array of either kernel call. -/
theorem W4_main_arg4 (c : Dev nD) : W4 m ρ c (Proc.devRef .tc main_arg4) = m ((c : Thread nD τ).loc main_arg4) :=
  (W4_of_ne m ρ c main_arg4 (by decide)).trans <| (W3_of m ρ c main_arg4 (by decide)).trans <|
    (W2_of_ne m ρ c main_arg4 (by decide)).trans <| (W1_of m ρ c main_arg4 (by decide)).trans rfl
/-- `main_arg5` ends as launched: no host operation writes it and it is no window's array of either kernel call. -/
theorem W4_main_arg5 (c : Dev nD) : W4 m ρ c (Proc.devRef .tc main_arg5) = m ((c : Thread nD τ).loc main_arg5) :=
  (W4_of_ne m ρ c main_arg5 (by decide)).trans <| (W3_of m ρ c main_arg5 (by decide)).trans <|
    (W2_of_ne m ρ c main_arg5 (by decide)).trans <| (W1_of m ρ c main_arg5 (by decide)).trans rfl
/-- `main_arg6` ends as launched: no host operation writes it and it is no window's array of either kernel call. -/
theorem W4_main_arg6 (c : Dev nD) : W4 m ρ c (Proc.devRef .tc main_arg6) = m ((c : Thread nD τ).loc main_arg6) :=
  (W4_of_ne m ρ c main_arg6 (by decide)).trans <| (W3_of m ρ c main_arg6 (by decide)).trans <|
    (W2_of_ne m ρ c main_arg6 (by decide)).trans <| (W1_of m ρ c main_arg6 (by decide)).trans rfl
/-- `main_arg7` ends as launched: no host operation writes it and it is no window's array of either kernel call. -/
theorem W4_main_arg7 (c : Dev nD) : W4 m ρ c (Proc.devRef .tc main_arg7) = m ((c : Thread nD τ).loc main_arg7) :=
  (W4_of_ne m ρ c main_arg7 (by decide)).trans <| (W3_of m ρ c main_arg7 (by decide)).trans <|
    (W2_of_ne m ρ c main_arg7 (by decide)).trans <| (W1_of m ρ c main_arg7 (by decide)).trans rfl
/-- `main_arg8` ends as launched: no host operation writes it and it is no window's array of either kernel call. -/
theorem W4_main_arg8 (c : Dev nD) : W4 m ρ c (Proc.devRef .tc main_arg8) = m ((c : Thread nD τ).loc main_arg8) :=
  (W4_of_ne m ρ c main_arg8 (by decide)).trans <| (W3_of m ρ c main_arg8 (by decide)).trans <|
    (W2_of_ne m ρ c main_arg8 (by decide)).trans <| (W1_of m ρ c main_arg8 (by decide)).trans rfl

/-! ## The proof data family and the thread state -/

/-- The prefetched tables' admissible contents: no pipeline has a table. -/
abbrev adm : (p : Fin 2) → (pcfgs (F := F) p).Adm := fun p => (cfgs p).toPCfg_adm
/-- Each pipeline's proof data, at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
/-- No variant is in play. -/
abbrev 𝒱₀ : Variants := Variants.none
/-- No core owes another anything: no level is assigned. -/
abbrev L : GSem nD τ sig → Finset Unit := fun _ => ∅
/-- The (unused) level of a semaphore. -/
abbrev lv : GSem nD τ sig → Unit → ℕ := fun _ _ => 0
/-- What rides beside the buffers through every segment: the core's generator register at some state, and its dues, at nothing. -/
abbrev R (c : Dev nD) : sProp 𝕄 := iprop((∃ r, prngReg c r) ∗ ∃ W, owes (c : Thread nD τ) (0 : CellTallies nD τ sig Unit) W)
/-- A stretch of host operations as a segment: from every unscoped buffer at `W` to every unscoped buffer at
    the stretch's result on `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first stretch allocates a buffer. -/
theorem host0_fresh : (hostOps0 : List (HloOp τ sig (Elt F))).Forall fun op => op.fresh = ∅ := by
  simp only [List.Forall]; repeat' constructor
/-- No operation of the second stretch allocates a buffer. -/
theorem host1_fresh : (hostOps1 : List (HloOp τ sig (Elt F))).Forall fun op => op.fresh = ∅ := by
  simp only [List.Forall]; repeat' constructor
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W4`, the
    generator register at some state. -/
abbrev Tₙ (c : Dev nD) : sProp 𝕄 := iprop(StableHlo.held (c : Thread nD τ) (Pipeline.ucRefs τ sig) (W4 m ρ c) ∗ ∃ r, prngReg c r)

/-! ## The kernel calls as segments -/

-- applying a library lemma stated over the pinned configuration unifies with the printed one only when unification may
-- unfold plain definitions in a metavariable's type
set_option backward.isDefEq.respectTransparency.types false in
/-- Kernel call 0 as a segment over the thread state: entered with every unscoped buffer at `W1`, left with every
    unscoped buffer at `W2`. Its windows' arrays are split out of the unscoped buffers at entry and put back at their
    exit contents; the generator register goes into the pipeline's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Kernel call 1 as a segment over the thread state: entered with every unscoped buffer at `W3`, left with every
    unscoped buffer at `W4`. Its windows' arrays are split out of the unscoped buffers at entry and put back at their
    exit contents; the generator register goes into the pipeline's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m ρ) () defs₀ 𝒱₀ L lv) :=
  [ .host (hseg hostOps0 hostOps0_sub host0_fresh (W0 m ρ)),
    .region (reg0 m ρ),
    .host (hseg hostOps1 hostOps1_sub host1_fresh (W2 m ρ)),
    .region (reg1 m ρ) ]
/-- @main is the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- From any memory with zero counters, every weakly fair execution of @main terminates without fault, and in every
    final state each core's every unscoped buffer holds the last boundary's contents `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- From any memory with zero counters, every weakly fair execution of @main terminates without fault, and every
    final state has each of the nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r hr c =>
    ⟨(hr c _ (mem_uc main_arg0 (by decide))).trans (W4_main_arg0 m ρ c),
      (hr c _ (mem_uc main_arg1 (by decide))).trans (W4_main_arg1 m ρ c),
      (hr c _ (mem_uc main_arg2 (by decide))).trans (W4_main_arg2 m ρ c),
      (hr c _ (mem_uc main_arg3 (by decide))).trans (W4_main_arg3 m ρ c),
      (hr c _ (mem_uc main_arg4 (by decide))).trans (W4_main_arg4 m ρ c),
      (hr c _ (mem_uc main_arg5 (by decide))).trans (W4_main_arg5 m ρ c),
      (hr c _ (mem_uc main_arg6 (by decide))).trans (W4_main_arg6 m ρ c),
      (hr c _ (mem_uc main_arg7 (by decide))).trans (W4_main_arg7 m ρ c),
      (hr c _ (mem_uc main_arg8 (by decide))).trans (W4_main_arg8 m ρ c)⟩) (run_main m ρ)

end Cert.Kernel.Frame

end
-- ==== Proof.KernelIdealFrameR0.lean ====
/-
  The first region — the fused projection kernel over an 8 × 3 grid — at the buffer contents V it is entered from, for the program read on the extended reals (stated at any float instance):
  the block of each window at a grid point; what the body leaves in the output staging buffer (its one stored value,
  a function of the three loaded blocks); the body run on whole staging buffers; the pipeline's proof data (each input
  buffer holds its block, the output buffer the stored value); the body obligation at every grid point.
-/
import proofs.«166768_j20882130993308_2_alg».proof.Proof.Gen.KernelIdeal.Launch
import proofs.«166768_j20882130993308_2_alg».proof.Proof.Gen.KernelIdeal.Skeleton
import proofs.«166768_j20882130993308_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the structural check recurses once per coordinate of the long axes
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 of @main: the first kernel call (matrix product plus bias, rounded to bf16), at the entry contents `V` -/

-- the core's buffer contents when the region is entered: the parameter this half is stated at
variable (V : (c : Dev nD) → (b : Ref sig .tc) → Buf (Elt F) ((c : Thread nD τ).loc b))

/-! ## The windows' blocks -/

/-- Window `w`'s block at grid point `t` of the first kernel call, read off its array at the region-entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every grid point, whether or not the window is
    fetched there (where it is not, its block index has not moved since the last fetch), for any proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every grid point, whether or not the window is
    fetched there (where it is not, its block index has not moved since the last fetch), for any proof data whose
    array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every grid point, whether or not the window is
    fetched there (where it is not, its block index has not moved since the last fetch), for any proof data whose
    array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 1024x1024 buffer as a rectangle: what the body loads from windows 0 and 1 and stores into window 3. -/
abbrev r0_a : Rect S1024x1024 := Rect.unit (s := S1024x1024) ![0, 0] S1024x1024.size inb_S1024x1024_S1024x1024_0_0
/-- The whole 1x1024 buffer as a rectangle: what the body loads from window 2. -/
abbrev r0_b : Rect S1x1024 := Rect.unit (s := S1x1024) ![0, 0] S1x1024.size inb_S1x1024_S1x1024_0_0

/-! ## What the body leaves in the output window's buffer -/

/-- Window 3's staging buffer after the body, as a function of the three input blocks: its one whole-buffer store,
    whose value is the body's payload on the three whole-buffer loads. -/
def out0_3 (x0 : Vec F S1024x1024 .f32) (x1 : Vec F S1024x1024 .bf16) (x2 : Vec F S1x1024 .f32) : Vec F S1024x1024 .bf16 :=
  View.canon [⟨r0_a, k0_pay1 (View.ld x0 r0_a) (View.ld x1 r0_a) (View.ld x2 r0_b)⟩]

/-- The one store covers the whole buffer. -/
theorem cover0_3 (p0 : Vec F S1024x1024 .bf16) (y : S1024x1024.Idx) :
    ∃ pc ∈ ([⟨r0_a, p0⟩] : List (View.Piece (Elt F) S1024x1024 .bf16)), y ∈ pc.1.set :=
  View.cover_of_tiled [⟨r0_a, p0⟩] S1024x1024.size (by rfl) y

/-! ## The body's triple -/

set_option maxHeartbeats 1000000 in
/-- The kernel body on whole staging memrefs, the inputs' holding `x0`, `x1`, `x2` and the output's anything, runs to
    the continuation with the inputs' unchanged and the output's holding `out0_3 x0 x1 x2`. -/
theorem sound_kernel0 (c : Dev nD) (E : Set ℕ) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole)
    (x0 : Vec F S1024x1024 .f32) (x1 : Vec F S1024x1024 .bf16) (x2 : Vec F S1x1024 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0_matmul_bias_kernel i arg2 harg2 arg3 harg3 arg4 harg4 arg5 harg5) K := by
  simp only [cc0_matmul_bias_kernel_eq_skeleton]; unfold cc0_matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the first kernel call on core `c`: the arrays at the region-entry contents `V`; after the body
    at point `t` each input's buffer holds its block and the output's holds `out0_3` of the three input blocks; the
    invariant is the scoped rest and the generator register, untouched; nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- After the body, input window 0's buffer holds its block. -/
theorem after0_0 (c : Dev nD) (t : Fin cfg0.N) : (dat0 V c).after 0 t = iblk0 V c 0 t := by dsimp only [dat0]
/-- After the body, input window 1's buffer holds its block. -/
theorem after0_1 (c : Dev nD) (t : Fin cfg0.N) : (dat0 V c).after 1 t = iblk0 V c 1 t := by dsimp only [dat0]
/-- After the body, input window 2's buffer holds its block. -/
theorem after0_2 (c : Dev nD) (t : Fin cfg0.N) : (dat0 V c).after 2 t = iblk0 V c 2 t := by dsimp only [dat0]
/-- After the body, the output window's buffer holds `out0_3` of the three input blocks. -/
theorem after0_3 (c : Dev nD) (t : Fin cfg0.N) : (dat0 V c).after 3 t = out0_3 (iblk0 V c 0 t) (iblk0 V c 1 t) (iblk0 V c 2 t) := by dsimp only [dat0]

/-- Before the body, input window 0's current buffer holds its block, at every point. -/
theorem before0_0 (c : Dev nD) (t : Fin cfg0.N) (d) : (dat0 V c).before 0 t d = iblk0 V c 0 t :=
  before0_0_of V (dat0 V c) (A_eq0 V c 0) (after0_0 V c) t d
/-- Before the body, input window 1's current buffer holds its block, at every point. -/
theorem before0_1 (c : Dev nD) (t : Fin cfg0.N) (d) : (dat0 V c).before 1 t d = iblk0 V c 1 t :=
  before0_1_of V (dat0 V c) (A_eq0 V c 1) (after0_1 V c) t d
/-- Before the body, input window 2's current buffer holds its block, at every point. -/
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, the core's dues, and each window's current staging
    buffer at what the pipeline left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What the body returns at point `t`: the same, each buffer at what the proof data say the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point takes `bodyPre0` to `bodyPost0`: the inputs' buffers hold their blocks, so the body's
    triple applies; the invariant and the dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the first kernel call's pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KernelIdealFrameR1.lean ====
/-
  The second region — the attention kernel with the output projection over a 4 × 4 grid — at the buffer contents V it
  is entered from, for the program read on the extended reals (stated at any float instance): the block of each of its six windows at a grid point (two of the inputs are fetched once, into a
  single staging buffer); what the body leaves in the output staging buffer (its one stored value, a function of the
  five loaded blocks); the body run on whole staging buffers; the pipeline's proof data; the body obligation at every
  grid point.
-/
import proofs.«166768_j20882130993308_2_alg».proof.Proof.Gen.KernelIdeal.Launch
import proofs.«166768_j20882130993308_2_alg».proof.Proof.Gen.KernelIdeal.Skeleton
import proofs.«166768_j20882130993308_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the structural check recurses once per coordinate of the long axes
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 of @main: the second kernel call (attention over one query tile, then the output projection), at the entry contents `V` -/

-- the core's buffer contents when the region is entered: the parameter this half is stated at
variable (V : (c : Dev nD) → (b : Ref sig .tc) → Buf (Elt F) ((c : Thread nD τ).loc b))

/-! ## The windows' blocks -/

/-- Window `w`'s block at grid point `t` of the second kernel call, read off its array at the region-entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every grid point, whether or not the window is
    fetched there (where it is not, its block index has not moved since the last fetch), for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every grid point, whether or not the window is
    fetched there (where it is not, its block index has not moved since the last fetch), for any proof data whose
    array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every grid point, whether or not the window is
    fetched there (where it is not, its block index has not moved since the last fetch), for any proof data whose
    array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every grid point, whether or not the window is
    fetched there (where it is not, its block index has not moved since the last fetch), for any proof data whose
    array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every grid point, whether or not the window is
    fetched there (where it is not, its block index has not moved since the last fetch), for any proof data whose
    array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 1x512x1024 buffer as a rectangle: what the body loads from window 0 and stores into window 5. -/
abbrev r1_a : Rect S1x512x1024 := Rect.unit (s := S1x512x1024) ![0, 0, 0] S1x512x1024.size inb_S1x512x1024_S1x512x1024_0_0_0
/-- The whole 1x2048x1024 buffer as a rectangle: what the body loads from windows 1 and 2. -/
abbrev r1_b : Rect S1x2048x1024 := Rect.unit (s := S1x2048x1024) ![0, 0, 0] S1x2048x1024.size inb_S1x2048x1024_S1x2048x1024_0_0_0
/-- The whole 1024x1024 buffer as a rectangle: what the body loads from window 3. -/
abbrev r1_c : Rect S1024x1024 := Rect.unit (s := S1024x1024) ![0, 0] S1024x1024.size inb_S1024x1024_S1024x1024_0_0
/-- The whole 1x1024 buffer as a rectangle: what the body loads from window 4. -/
abbrev r1_d : Rect S1x1024 := Rect.unit (s := S1x1024) ![0, 0] S1x1024.size inb_S1x1024_S1x1024_0_0

/-! ## What the body leaves in the output window's buffer -/

/-- Window 5's staging buffer after the body, as a function of the five input blocks: its one whole-buffer store,
    whose value is the body's payload on the five whole-buffer loads. -/
def out1_5 (x0 : Vec F S1x512x1024 .bf16) (x1 x2 : Vec F S1x2048x1024 .bf16) (x3 : Vec F S1024x1024 .bf16) (x4 : Vec F S1x1024 .f32) : Vec F S1x512x1024 .f32 :=
  View.canon [⟨r1_a, k1_pay1 (View.ld x0 r1_a) (View.ld x1 r1_b) (View.ld x2 r1_b) (View.ld x3 r1_c) (View.ld x4 r1_d)⟩]

/-- The one store covers the whole buffer. -/
theorem cover1_5 (p0 : Vec F S1x512x1024 .f32) (y : S1x512x1024.Idx) :
    ∃ pc ∈ ([⟨r1_a, p0⟩] : List (View.Piece (Elt F) S1x512x1024 .f32)), y ∈ pc.1.set :=
  View.cover_of_tiled [⟨r1_a, p0⟩] S1x512x1024.size (by rfl) y

/-! ## The body's triple -/

set_option maxHeartbeats 1000000 in
/-- The kernel body on whole staging memrefs, the inputs' holding `x0` … `x4` and the output's anything, runs to
    the continuation with the inputs' unchanged and the output's holding `out1_5 x0 x1 x2 x3 x4`. -/
theorem sound_kernel1 (c : Dev nD) (E : Set ℕ) (i : grid1.Coords) (arg2 : Memref sig .tc .vmem S1x512x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x512x1024 .f32) (harg7 : arg7.IsWhole)
    (x0 : Vec F S1x512x1024 .bf16) (x1 x2 : Vec F S1x2048x1024 .bf16) (x3 : Vec F S1024x1024 .bf16) (x4 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out1_5 x0 x1 x2 x3 x4)) -∗ K ⟨⟩))
      ⊢ wp frame (wpE (defs₀ (F := F)) Variants.none c none) E (cc1_attn_proj_kernel i arg2 harg2 arg3 harg3 arg4 harg4 arg5 harg5 arg6 harg6 arg7 harg7) K := by
  simp only [cc1_attn_proj_kernel_eq_skeleton]; unfold cc1_attn_proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the second kernel call on core `c`: the arrays at the region-entry contents `V`; after the body
    at point `t` each input's buffer holds its block and the output's holds `out1_5` of the five input blocks; the
    invariant is the scoped rest and the generator register, untouched; nothing is owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- After the body, input window 0's buffer holds its block. -/
theorem after1_0 (c : Dev nD) (t : Fin cfg1.N) : (dat1 V c).after 0 t = iblk1 V c 0 t := by dsimp only [dat1]
/-- After the body, input window 1's buffer holds its block. -/
theorem after1_1 (c : Dev nD) (t : Fin cfg1.N) : (dat1 V c).after 1 t = iblk1 V c 1 t := by dsimp only [dat1]
/-- After the body, input window 2's buffer holds its block. -/
theorem after1_2 (c : Dev nD) (t : Fin cfg1.N) : (dat1 V c).after 2 t = iblk1 V c 2 t := by dsimp only [dat1]
/-- After the body, input window 3's buffer holds its block. -/
theorem after1_3 (c : Dev nD) (t : Fin cfg1.N) : (dat1 V c).after 3 t = iblk1 V c 3 t := by dsimp only [dat1]
/-- After the body, input window 4's buffer holds its block. -/
theorem after1_4 (c : Dev nD) (t : Fin cfg1.N) : (dat1 V c).after 4 t = iblk1 V c 4 t := by dsimp only [dat1]
/-- After the body, the output window's buffer holds `out1_5` of the five input blocks. -/
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Before the body, input window 0's current buffer holds its block, at every point. -/
theorem before1_0 (c : Dev nD) (t : Fin cfg1.N) (d) : (dat1 V c).before 0 t d = iblk1 V c 0 t :=
  before1_0_of V (dat1 V c) (A_eq1 V c 0) (after1_0 V c) t d
/-- Before the body, input window 1's current buffer holds its block, at every point. -/
theorem before1_1 (c : Dev nD) (t : Fin cfg1.N) (d) : (dat1 V c).before 1 t d = iblk1 V c 1 t :=
  before1_1_of V (dat1 V c) (A_eq1 V c 1) (after1_1 V c) t d
/-- Before the body, input window 2's current buffer holds its block, at every point. -/
theorem before1_2 (c : Dev nD) (t : Fin cfg1.N) (d) : (dat1 V c).before 2 t d = iblk1 V c 2 t :=
  before1_2_of V (dat1 V c) (A_eq1 V c 2) (after1_2 V c) t d
/-- Before the body, input window 3's current buffer holds its block, at every point. -/
theorem before1_3 (c : Dev nD) (t : Fin cfg1.N) (d) : (dat1 V c).before 3 t d = iblk1 V c 3 t :=
  before1_3_of V (dat1 V c) (A_eq1 V c 3) (after1_3 V c) t d
/-- Before the body, input window 4's current buffer holds its block, at every point. -/
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`: the invariant, the core's dues, and each window's current staging
    buffer at what the pipeline left in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What the body returns at point `t`: the same, each buffer at what the proof data say the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point takes `bodyPre1` to `bodyPost1`: the inputs' buffers hold their blocks, so the body's
    triple applies; the invariant and the dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the second kernel call's pipeline, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.KernelIdealFrame.lean ====
/-
  The program's run from launch to return, for the program read on the extended reals (stated at any float instance): the buffer contents at each boundary — the launch memory; after the
  first stretch of host operations; after the first region (its output array at what its write-backs leave, every other
  buffer as entered); after the second stretch; after the second region —; each argument array read back unchanged
  through them (no host operation and no region writes an argument); the two regions as segments entered from and left
  at those contents; every weakly fair execution terminates, faulting nowhere, with every unscoped buffer at the last
  contents; hence the frame.
-/
import proofs.«166768_j20882130993308_2_alg».proof.Proof.KernelIdealFrameR0
import proofs.«166768_j20882130993308_2_alg».proof.Proof.KernelIdealFrameR1

-- membership in a rectangle of large extents: the structural check recurses once per coordinate of the long axes
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: host operations, the first kernel call, host operations, the second kernel call

## The buffer contents at each boundary of @main -/

/-- Core `c`'s buffers at launch. -/
abbrev W0 : Dev nD → Valuation τ sig (Elt F) := fun c b => (s₀ m ρ).mem ((c : Dev nD), b)
/-- Core `c`'s buffers after the first stretch of host operations: the first kernel call's entry. -/
abbrev W1 : Dev nD → Valuation τ sig (Elt F) := fun c => StableHlo.after hostOps0 (W0 m ρ c)
/-- The same, read at the core's references. -/
abbrev V1 : (c : Dev nD) → (b : Ref sig .tc) → Buf (Elt F) ((c : Thread nD τ).loc b) := fun c b => W1 m ρ c b
/-- Core `c`'s buffers at the first kernel call's exit: its windows' arrays at what the pipeline leaves (an input as
    entered, the output at its write-backs folded over the grid), every other buffer as entered. -/
def W2 (c : Dev nD) : Valuation τ sig (Elt F) :=
  Pipeline.withArrays spec0 c (W1 m ρ c) fun w => (dat0 (V1 m ρ) c).arrAt w cfg0.N
/-- At the first kernel call's exit, window `w`'s array holds what the pipeline leaves in it. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- At the first kernel call's exit, a buffer that is no window's array holds what it held at entry. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The first kernel call's exit contents, read at the core's references. -/
abbrev V2 : (c : Dev nD) → (b : Ref sig .tc) → Buf (Elt F) ((c : Thread nD τ).loc b) := fun c b => W2 m ρ c b
/-- The exit contents at a window's array are what the pipeline leaves there. -/
theorem hF0 (c : Dev nD) (w : Fin cfg0.W) : (dat0 (V1 m ρ) c).arrAt w cfg0.N = V2 m ρ c (Pipeline.arrRef spec0 w) :=
  (W2_arr m ρ c w).symm
/-- The exit contents off the windows' arrays are the entry contents. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- Core `c`'s buffers after the second stretch of host operations: the second kernel call's entry. -/
abbrev W3 : Dev nD → Valuation τ sig (Elt F) := fun c => StableHlo.after hostOps1 (W2 m ρ c)
/-- The same, read at the core's references. -/
abbrev V3 : (c : Dev nD) → (b : Ref sig .tc) → Buf (Elt F) ((c : Thread nD τ).loc b) := fun c b => W3 m ρ c b
/-- Core `c`'s buffers at the second kernel call's exit, which is @main's return: its windows' arrays at what the
    pipeline leaves, every other buffer as entered. -/
def W4 (c : Dev nD) : Valuation τ sig (Elt F) :=
  Pipeline.withArrays spec1 c (W3 m ρ c) fun w => (dat1 (V3 m ρ) c).arrAt w cfg1.N
/-- At the second kernel call's exit, window `w`'s array holds what the pipeline leaves in it. -/
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
/-- At the second kernel call's exit, a buffer that is no window's array holds what it held at entry. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The second kernel call's exit contents, read at the core's references. -/
abbrev V4 : (c : Dev nD) → (b : Ref sig .tc) → Buf (Elt F) ((c : Thread nD τ).loc b) := fun c b => W4 m ρ c b
/-- The exit contents at a window's array are what the pipeline leaves there. -/
theorem hF1 (c : Dev nD) (w : Fin cfg1.W) : (dat1 (V3 m ρ) c).arrAt w cfg1.N = V4 m ρ c (Pipeline.arrRef spec1 w) :=
  (W4_arr m ρ c w).symm
/-- The exit contents off the windows' arrays are the entry contents. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## What the host operations write -/

/-- The references the first stretch of host operations writes. -/
abbrev host0_W : List (Ref sig .tc) := [main_v0, main_v1, main_v2, main_v3, main_v4, main_v5]
/-- Every operation of the first stretch writes one of them. -/
theorem host0_writes : (hostOps0 : List (HloOp τ sig (Elt F))).Forall fun op => op.writes ⊆ (host0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The references the second stretch of host operations writes. -/
abbrev host1_W : List (Ref sig .tc) := [main_v7, main_v8, main_v9, main_v10, main_v11, main_v12, main_v13]
/-- Every operation of the second stretch writes one of them. -/
theorem host1_writes : (hostOps1 : List (HloOp τ sig (Elt F))).Forall fun op => op.writes ⊆ (host1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the first stretch does not write holds after it what it held at launch. -/
theorem W1_of (c : Dev nD) (r : Ref sig .tc) (h : r ∉ host0_W) : W1 m ρ c (Proc.devRef .tc r) = W0 m ρ c (Proc.devRef .tc r) :=
  StableHlo.after_of_writes_sub hostOps0 _ host0_writes h
/-- A buffer the second stretch does not write holds after it what it held at the first kernel call's exit. -/
theorem W3_of (c : Dev nD) (r : Ref sig .tc) (h : r ∉ host1_W) : W3 m ρ c (Proc.devRef .tc r) = W2 m ρ c (Proc.devRef .tc r) :=
  StableHlo.after_of_writes_sub hostOps1 _ host1_writes h

/-! ## The arguments end as launched -/

/-- `main_arg0` ends as launched: no host operation writes it and it is no window's array of either kernel call. -/
theorem W4_main_arg0 (c : Dev nD) : W4 m ρ c (Proc.devRef .tc main_arg0) = m ((c : Thread nD τ).loc main_arg0) :=
  (W4_of_ne m ρ c main_arg0 (by decide)).trans <| (W3_of m ρ c main_arg0 (by decide)).trans <|
    (W2_of_ne m ρ c main_arg0 (by decide)).trans <| (W1_of m ρ c main_arg0 (by decide)).trans rfl
/-- `main_arg1` ends as launched: no host operation writes it and it is no window's array of either kernel call. -/
theorem W4_main_arg1 (c : Dev nD) : W4 m ρ c (Proc.devRef .tc main_arg1) = m ((c : Thread nD τ).loc main_arg1) :=
  (W4_of_ne m ρ c main_arg1 (by decide)).trans <| (W3_of m ρ c main_arg1 (by decide)).trans <|
    (W2_of_ne m ρ c main_arg1 (by decide)).trans <| (W1_of m ρ c main_arg1 (by decide)).trans rfl
/-- `main_arg2` ends as launched: no host operation writes it and it is no window's array of either kernel call. -/
theorem W4_main_arg2 (c : Dev nD) : W4 m ρ c (Proc.devRef .tc main_arg2) = m ((c : Thread nD τ).loc main_arg2) :=
  (W4_of_ne m ρ c main_arg2 (by decide)).trans <| (W3_of m ρ c main_arg2 (by decide)).trans <|
    (W2_of_ne m ρ c main_arg2 (by decide)).trans <| (W1_of m ρ c main_arg2 (by decide)).trans rfl
/-- `main_arg3` ends as launched: no host operation writes it and it is no window's array of either kernel call. -/
theorem W4_main_arg3 (c : Dev nD) : W4 m ρ c (Proc.devRef .tc main_arg3) = m ((c : Thread nD τ).loc main_arg3) :=
  (W4_of_ne m ρ c main_arg3 (by decide)).trans <| (W3_of m ρ c main_arg3 (by decide)).trans <|
    (W2_of_ne m ρ c main_arg3 (by decide)).trans <| (W1_of m ρ c main_arg3 (by decide)).trans rfl
/-- `main_arg4` ends as launched: no host operation writes it and it is no window's array of either kernel call. -/
theorem W4_main_arg4 (c : Dev nD) : W4 m ρ c (Proc.devRef .tc main_arg4) = m ((c : Thread nD τ).loc main_arg4) :=
  (W4_of_ne m ρ c main_arg4 (by decide)).trans <| (W3_of m ρ c main_arg4 (by decide)).trans <|
    (W2_of_ne m ρ c main_arg4 (by decide)).trans <| (W1_of m ρ c main_arg4 (by decide)).trans rfl
/-- `main_arg5` ends as launched: no host operation writes it and it is no window's array of either kernel call. -/
theorem W4_main_arg5 (c : Dev nD) : W4 m ρ c (Proc.devRef .tc main_arg5) = m ((c : Thread nD τ).loc main_arg5) :=
  (W4_of_ne m ρ c main_arg5 (by decide)).trans <| (W3_of m ρ c main_arg5 (by decide)).trans <|
    (W2_of_ne m ρ c main_arg5 (by decide)).trans <| (W1_of m ρ c main_arg5 (by decide)).trans rfl
/-- `main_arg6` ends as launched: no host operation writes it and it is no window's array of either kernel call. -/
theorem W4_main_arg6 (c : Dev nD) : W4 m ρ c (Proc.devRef .tc main_arg6) = m ((c : Thread nD τ).loc main_arg6) :=
  (W4_of_ne m ρ c main_arg6 (by decide)).trans <| (W3_of m ρ c main_arg6 (by decide)).trans <|
    (W2_of_ne m ρ c main_arg6 (by decide)).trans <| (W1_of m ρ c main_arg6 (by decide)).trans rfl
/-- `main_arg7` ends as launched: no host operation writes it and it is no window's array of either kernel call. -/
theorem W4_main_arg7 (c : Dev nD) : W4 m ρ c (Proc.devRef .tc main_arg7) = m ((c : Thread nD τ).loc main_arg7) :=
  (W4_of_ne m ρ c main_arg7 (by decide)).trans <| (W3_of m ρ c main_arg7 (by decide)).trans <|
    (W2_of_ne m ρ c main_arg7 (by decide)).trans <| (W1_of m ρ c main_arg7 (by decide)).trans rfl
/-- `main_arg8` ends as launched: no host operation writes it and it is no window's array of either kernel call. -/
theorem W4_main_arg8 (c : Dev nD) : W4 m ρ c (Proc.devRef .tc main_arg8) = m ((c : Thread nD τ).loc main_arg8) :=
  (W4_of_ne m ρ c main_arg8 (by decide)).trans <| (W3_of m ρ c main_arg8 (by decide)).trans <|
    (W2_of_ne m ρ c main_arg8 (by decide)).trans <| (W1_of m ρ c main_arg8 (by decide)).trans rfl

/-! ## The proof data family and the thread state -/

/-- The prefetched tables' admissible contents: no pipeline has a table. -/
abbrev adm : (p : Fin 2) → (pcfgs (F := F) p).Adm := fun p => (cfgs p).toPCfg_adm
/-- Each pipeline's proof data, at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
/-- No variant is in play. -/
abbrev 𝒱₀ : Variants := Variants.none
/-- No core owes another anything: no level is assigned. -/
abbrev L : GSem nD τ sig → Finset Unit := fun _ => ∅
/-- The (unused) level of a semaphore. -/
abbrev lv : GSem nD τ sig → Unit → ℕ := fun _ _ => 0
/-- What rides beside the buffers through every segment: the core's generator register at some state, and its dues, at nothing. -/
abbrev R (c : Dev nD) : sProp 𝕄 := iprop((∃ r, prngReg c r) ∗ ∃ W, owes (c : Thread nD τ) (0 : CellTallies nD τ sig Unit) W)
/-- A stretch of host operations as a segment: from every unscoped buffer at `W` to every unscoped buffer at
    the stretch's result on `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first stretch allocates a buffer. -/
theorem host0_fresh : (hostOps0 : List (HloOp τ sig (Elt F))).Forall fun op => op.fresh = ∅ := by
  simp only [List.Forall]; repeat' constructor
/-- No operation of the second stretch allocates a buffer. -/
theorem host1_fresh : (hostOps1 : List (HloOp τ sig (Elt F))).Forall fun op => op.fresh = ∅ := by
  simp only [List.Forall]; repeat' constructor
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W4`, the
    generator register at some state. -/
abbrev Tₙ (c : Dev nD) : sProp 𝕄 := iprop(StableHlo.held (c : Thread nD τ) (Pipeline.ucRefs τ sig) (W4 m ρ c) ∗ ∃ r, prngReg c r)

/-! ## The kernel calls as segments -/

-- applying a library lemma stated over the pinned configuration unifies with the printed one only when unification may
-- unfold plain definitions in a metavariable's type
set_option backward.isDefEq.respectTransparency.types false in
/-- Kernel call 0 as a segment over the thread state: entered with every unscoped buffer at `W1`, left with every
    unscoped buffer at `W2`. Its windows' arrays are split out of the unscoped buffers at entry and put back at their
    exit contents; the generator register goes into the pipeline's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Kernel call 1 as a segment over the thread state: entered with every unscoped buffer at `W3`, left with every
    unscoped buffer at `W4`. Its windows' arrays are split out of the unscoped buffers at entry and put back at their
    exit contents; the generator register goes into the pipeline's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m ρ) () defs₀ 𝒱₀ L lv) :=
  [ .host (hseg hostOps0 hostOps0_sub host0_fresh (W0 m ρ)),
    .region (reg0 m ρ),
    .host (hseg hostOps1 hostOps1_sub host1_fresh (W2 m ρ)),
    .region (reg1 m ρ) ]
/-- @main is the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- From any memory with zero counters, every weakly fair execution of @main terminates without fault, and in every
    final state each core's every unscoped buffer holds the last boundary's contents `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- From any memory with zero counters, every weakly fair execution of @main terminates without fault, and every
    final state has each of the nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r hr c =>
    ⟨(hr c _ (mem_uc main_arg0 (by decide))).trans (W4_main_arg0 m ρ c),
      (hr c _ (mem_uc main_arg1 (by decide))).trans (W4_main_arg1 m ρ c),
      (hr c _ (mem_uc main_arg2 (by decide))).trans (W4_main_arg2 m ρ c),
      (hr c _ (mem_uc main_arg3 (by decide))).trans (W4_main_arg3 m ρ c),
      (hr c _ (mem_uc main_arg4 (by decide))).trans (W4_main_arg4 m ρ c),
      (hr c _ (mem_uc main_arg5 (by decide))).trans (W4_main_arg5 m ρ c),
      (hr c _ (mem_uc main_arg6 (by decide))).trans (W4_main_arg6 m ρ c),
      (hr c _ (mem_uc main_arg7 (by decide))).trans (W4_main_arg7 m ρ c),
      (hr c _ (mem_uc main_arg8 (by decide))).trans (W4_main_arg8 m ρ c)⟩) (run_main m ρ)

end Cert.KernelIdeal.Frame

end
-- ==== Proof.QkvBlock.lean ====
/-
  One block of the fused projection: the body of the first kernel read at an index, at the exact instance.
  From a block x of 1024 rows of the activations, a block w of 1024 columns of the transposed stacked weights
  and the matching block b of the stacked biases, the body stores  (p, q) ↦ ∑ j, x (p, j) · w (j, q) + b (0, q).
-/
import proofs.«166768_j20882130993308_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.QkvBlock

open Cert.KernelIdeal Cert.KernelIdeal.Gen Idealize.ShloMosaic Idealize.ShloMosaic.ValueIdx

theorem matmul_sq_lhs_nc (i : S1024x1024.Idx) (u : dot_S1024x1024_S1024x1024_S1024x1024_1_0_0_1_n_n.contr.Idx) :
    (dot_S1024x1024_S1024x1024_S1024x1024_1_0_0_1_n_n.lhsIdx i u 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl
theorem matmul_sq_lhs_c (i : S1024x1024.Idx) (u : dot_S1024x1024_S1024x1024_S1024x1024_1_0_0_1_n_n.contr.Idx) :
    (dot_S1024x1024_S1024x1024_S1024x1024_1_0_0_1_n_n.lhsIdx i u 1).val = (u ⟨0, by decide⟩).val :=
  dot_S1024x1024_S1024x1024_S1024x1024_1_0_0_1_n_n.lhsIdx_val_of_single rfl i u
theorem matmul_sq_rhs_nc (i : S1024x1024.Idx) (u : dot_S1024x1024_S1024x1024_S1024x1024_1_0_0_1_n_n.contr.Idx) :
    (dot_S1024x1024_S1024x1024_S1024x1024_1_0_0_1_n_n.rhsIdx i u 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl
theorem matmul_sq_rhs_c (i : S1024x1024.Idx) (u : dot_S1024x1024_S1024x1024_S1024x1024_1_0_0_1_n_n.contr.Idx) :
    (dot_S1024x1024_S1024x1024_S1024x1024_1_0_0_1_n_n.rhsIdx i u 0).val = (u ⟨0, by decide⟩).val :=
  dot_S1024x1024_S1024x1024_S1024x1024_1_0_0_1_n_n.rhsIdx_val_of_single rfl i u

/-- A product of a [1024, 1024] block with a [1024, 1024] block into a zero accumulator, read at (p, q): the sum over the shared axis. -/
theorem matmul_sq_apply (A : FVec Ideal S1024x1024 .bf16) (B : FVec Ideal S1024x1024 .bf16) (p q : Fin 1024) :
    matmul dot_S1024x1024_S1024x1024_S1024x1024_1_0_0_1_n_n none A B (constant (F := Ideal) S1024x1024 .f32 0x00000000#32) (ix2 p q)
      = ∑ j : Fin 1024, A (ix2 p j) * B (ix2 j q) := by
  refine (Ideal.matmul_constant_zero_apply dot_S1024x1024_S1024x1024_S1024x1024_1_0_0_1_n_n none A B (ix2 p q)).trans ?_
  rw [← Equiv.sum_comp (contrEquiv1 dot_S1024x1024_S1024x1024_S1024x1024_1_0_0_1_n_n 1024 rfl rfl).symm]
  refine Finset.sum_congr rfl fun j _ => ?_
  have hj := contrEquiv1_symm_val dot_S1024x1024_S1024x1024_S1024x1024_1_0_0_1_n_n 1024 rfl rfl j
  have el : dot_S1024x1024_S1024x1024_S1024x1024_1_0_0_1_n_n.lhsIdx (ix2 p q) ((contrEquiv1 dot_S1024x1024_S1024x1024_S1024x1024_1_0_0_1_n_n 1024 rfl rfl).symm j) = ix2 p j :=
    funext fun a => Fin.ext (by
      match a with
      | ⟨0, _⟩ => exact matmul_sq_lhs_nc _ _
      | ⟨1, _⟩ => exact (matmul_sq_lhs_c _ _).trans hj)
  have er : dot_S1024x1024_S1024x1024_S1024x1024_1_0_0_1_n_n.rhsIdx (ix2 p q) ((contrEquiv1 dot_S1024x1024_S1024x1024_S1024x1024_1_0_0_1_n_n 1024 rfl rfl).symm j) = ix2 j q :=
    funext fun a => Fin.ext (by
      match a with
      | ⟨1, _⟩ => exact matmul_sq_rhs_nc _ _
      | ⟨0, _⟩ => exact (matmul_sq_rhs_c _ _).trans hj)
  rw [el, er]

/-- A row vector [1, 1024] broadcast along the rows of [1024, 1024] reads, at (p, q), its entry (0, q). -/
theorem bias_row_apply (v : FVec Ideal S1x1024 .f32) (p q : Fin 1024) :
    broadcastTo S1024x1024 v broadcasts_S1x1024_S1024x1024 (ix2 p q) = v (ix2 (0 : Fin 1) q) := by
  refine broadcastTo_apply v broadcasts_S1x1024_S1024x1024 (ix2 p q) (ix2 (0 : Fin 1) q) fun ax => ?_
  match ax with
  | ⟨0, _⟩ => rfl
  | ⟨1, _⟩ => rfl

/-- The first kernel's stored block at (p, q). -/
theorem k0_pay1_apply (x0 : Vec Ideal S1024x1024 .f32) (x1 : Vec Ideal S1024x1024 .bf16) (x2 : Vec Ideal S1x1024 .f32)
    (p q : Fin 1024) :
    k0_pay1 (F := Ideal) x0 x1 x2 (ix2 p q) = (∑ j : Fin 1024, x0 (ix2 p j) * x1 (ix2 j q)) + x2 (ix2 (0 : Fin 1) q) := by
  unfold k0_pay1
  rw [shapeCast_self x0, shapeCast_self x1, shapeCast_self x2]
  exact congrArg₂ (· + ·) (matmul_sq_apply _ _ p q) (bias_row_apply x2 p q)

end Cert.KernelIdeal.QkvBlock

end
-- ==== Proof.QkvArray.lean ====
/-
  The array the first region leaves: every entry (r, n) of the fused projection is
    ∑ j, X (r, j) · Wᵀ (j, n) + B (0, n)
  of the three arrays X [8192, 1024], Wᵀ [1024, 3072], B [1, 3072] the region reads. Grid point (i, j) of the
  8 × 3 grid writes rows 1024 i … 1024 i + 1023 and columns 1024 j … 1024 j + 1023; the 24 blocks tile the array.
-/
import proofs.«166768_j20882130993308_2_alg».proof.Proof.KernelIdealFrame
import proofs.«166768_j20882130993308_2_alg».proof.Proof.QkvBlock
import Idealize.ShloMosaic.Lib.Pipeline.Value

set_option maxRecDepth 16384

noncomputable section

open scoped BigOperators

namespace Cert.KernelIdeal.QkvArray

open Cert.KernelIdeal Cert.KernelIdeal.Gen Cert.KernelIdeal.Frame Cert.KernelIdeal.QkvBlock
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl

/-- The fused projection as one function of the three arrays the first region reads. -/
def qkv (a5 : S8192x1024.Idx → EReal) (a3 : S1024x3072.Idx → EReal) (a4 : S1x3072.Idx → EReal) : S8192x3072.Idx → EReal :=
  fun i => (∑ j : Fin 1024, a5 (ix2 (i 0) j) * a3 (ix2 j (i 1))) + a4 (ix2 (0 : Fin 1) (i 1))

/-- A stored block is the matching block of the fused projection, once each loaded block is known to be the
    matching rows, columns and bias entries of the arrays. -/
theorem block_eq (x0 : FVec Ideal S1024x1024 .f32) (x1 : FVec Ideal S1024x1024 .bf16) (x2 : FVec Ideal S1x1024 .f32)
    (a5 : S8192x1024.Idx → EReal) (a3 : S1024x3072.Idx → EReal) (a4 : S1x3072.Idx → EReal)
    (y : S1024x1024.Idx) (i : S8192x3072.Idx)
    (h0 : ∀ j : Fin 1024, x0 (ix2 (y 0) j) = a5 (ix2 (i 0) j))
    (h1 : ∀ j : Fin 1024, x1 (ix2 j (y 1)) = a3 (ix2 j (i 1)))
    (h2 : x2 (ix2 (0 : Fin 1) (y 1)) = a4 (ix2 (0 : Fin 1) (i 1))) :
    k0_pay1 (F := Ideal) x0 x1 x2 y = qkv a5 a3 a4 i := by
  obtain ⟨p, q, rfl⟩ : ∃ (p q : Fin 1024), y = ix2 p q := ⟨y 0, y 1, eq_ix2 y⟩
  rw [k0_pay1_apply]
  unfold qkv
  exact congrArg₂ (· + ·) (Finset.sum_congr rfl fun j _ => congrArg₂ (· * ·) (h0 j) (h1 j)) h2

/-- The index maps over the grid: the activations' block moves with the output's row block, the weights' and the
    biases' with its column block; 8 row blocks, 3 column blocks. -/
theorem idx_facts0 : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = win0_3.index t (1 : Fin 2)
    ∧ win0_2.index t (0 : Fin 2) = 0
    ∧ win0_2.index t (1 : Fin 2) = win0_3.index t (1 : Fin 2)
    ∧ win0_3.index t (0 : Fin 2) ≤ 7 ∧ win0_3.index t (1 : Fin 2) ≤ 2 :=
  (by decide +kernel : ∀ t : Fin grid0.N, _)

/-- Every (row block, column block) pair is some grid point's. -/
theorem idx_onto0 : ∀ (q0 : Fin 8) (q1 : Fin 3), ∃ t : Fin cfg0.N, win0_3.index t = ![q0.val, q1.val] :=
  (by decide +kernel : ∀ (q0 : Fin 8) (q1 : Fin 3), ∃ t : Fin grid0.N, win0_3.index t = ![q0.val, q1.val])

variable (V : (c : Dev nD) → (b : Ref sig .tc) → Buf (Elt Ideal) ((c : Thread nD τ).loc b))

/-- What grid point `t` writes back is block `t` of the fused projection of the arrays as the region finds them. -/
theorem flushed0_eq (c : Dev nD) (t : Fin cfg0.N) :
    (dat0 V c).flushed 3 t
      = ((cfg0.win 3).blk t).view.read (Elt Ideal) (qkv (V c main_v5) (V c main_v3) (V c main_v4)) := by
  show (cfg0.win 3).cut (grid0.coords t) ((dat0 V c).after 3 t) = _
  rw [after0_3]
  unfold out0_3
  rw [View.canon_unit_zero hz2]
  simp only [View.ld_unit_zero (S := S1024x1024) hz2, View.ld_unit_zero (S := S1x1024) hz2]
  obtain ⟨e0, e1, e2, e3, e4, e5, e6, e7⟩ := idx_facts0 t
  funext y
  show k0_pay1 (F := Ideal) (iblk0 V c 0 t) (iblk0 V c 1 t) (iblk0 V c 2 t) y
    = qkv (V c main_v5) (V c main_v3) (V c main_v4) (((cfg0.win 3).blk t).view.emb y)
  refine block_eq _ _ _ _ _ _ y _ (fun j => ?_) (fun j => ?_) ?_
  · unfold iblk0
    rw [View.read_apply]
    refine congrArg (V c main_v5) (funext fun a => Fin.ext ?_)
    match a with
    | ⟨0, _⟩ => show win0_0.index t (0 : Fin 2) * 1024 + 1 * (y 0).val = win0_3.index t (0 : Fin 2) * 1024 + 1 * (y 0).val; omega
    | ⟨1, _⟩ => show win0_0.index t (1 : Fin 2) * 1024 + 1 * j.val = j.val; omega
  · unfold iblk0
    rw [View.read_apply]
    refine congrArg (V c main_v3) (funext fun a => Fin.ext ?_)
    match a with
    | ⟨0, _⟩ => show win0_1.index t (0 : Fin 2) * 1024 + 1 * j.val = j.val; omega
    | ⟨1, _⟩ => show win0_1.index t (1 : Fin 2) * 1024 + 1 * (y 1).val = win0_3.index t (1 : Fin 2) * 1024 + 1 * (y 1).val; omega
  · unfold iblk0
    rw [View.read_apply]
    refine congrArg (V c main_v4) (funext fun a => Fin.ext ?_)
    match a with
    | ⟨0, _⟩ => show win0_2.index t (0 : Fin 2) * 1 + 1 * 0 = 0; omega
    | ⟨1, _⟩ => show win0_2.index t (1 : Fin 2) * 1024 + 1 * (y 1).val = win0_3.index t (1 : Fin 2) * 1024 + 1 * (y 1).val; omega

/-- An index of the array is in point `t`'s block iff each coordinate is in the block's range on its axis. -/
theorem mem_blk0 (t : Fin cfg0.N) (i : S8192x3072.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v6).slice (win0_3.rect t)).set ↔ _
  rw [View.set_slice_whole, Rect.mem_set_unit]
  exact Iff.rfl

/-- The 24 blocks cover the array: entry (r, n) lies in the block of the point with row block r / 1024 and column
    block n / 1024. -/
theorem cover0 (i : S8192x3072.Idx) :
    ∃ t : Fin cfg0.N, (cfg0.win 3).flush t = true ∧ i ∈ ((cfg0.win 3).blk t).view.set := by
  have hi0 : (i 0).val < 8192 := (i 0).isLt
  have hi1 : (i 1).val < 3072 := (i 1).isLt
  obtain ⟨t, ht⟩ := idx_onto0 ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, flush0_3 t, ?_⟩
  rw [mem_blk0]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

/-- The output array after the first region: the fused projection of the arrays as the region finds them. -/
theorem final0 (c : Dev nD) :
    (dat0 V c).arrAt 3 cfg0.N = qkv (V c main_v5) (V c main_v3) (V c main_v4) :=
  (dat0 V c).arrAt_eq_of_cover 3 (qkv (V c main_v5) (V c main_v3) (V c main_v4)) (fun t _ => flushed0_eq V c t) cover0

end Cert.KernelIdeal.QkvArray

end
-- ==== Proof.LibLastAxisSoftmax.lean ====
/-
  Softmax along the last axis, read at an index, on the extended reals.

  A row of extended reals `f : Fin c → EReal` has the softmax
  `exp (f l - M) / ∑ k, exp (f k - M)`, with `M` the row's maximum taken from the word of minus
  infinity upward (`softmaxAt`). Two programs compute it, each along the LAST axis of an array:
  * a vector program on a rank-3 array [a, b, c]: the maximum and the sum are lane reductions to
    [a, b], each kept as a unit axis [a, b, 1] and broadcast back to [a, b, c] (`vecSoftmax3`);
  * a host program on a rank-4 array [a, b, g, c]: the maximum and the sum are reductions over
    axis 3 to [a, b, g], the maximum joined once more with minus infinity (which changes nothing),
    each broadcast back through [a, b, g, 1] (`hostSoftmax4`).
  Read at an index both are `softmaxAt` of the row through that index
  (`vecSoftmax3_apply`, `hostSoftmax4_apply`): no law of arithmetic is used beyond
  `max b (fold max b f) = fold max b f` and `0 + s = s`.
-/
import Idealize.ShloMosaic.PureOps.Ideal.Laws
import Idealize.ShloMosaic.Lib.ValueIdx
import Idealize.ShloMosaic.Lib.Pipeline.Value

noncomputable section

open scoped BigOperators

namespace Idealize.ShloMosaic.LastAxisSoftmax

open Idealize.ShloMosaic Idealize.ShloMosaic.ValueIdx

/-- The extended real that the f32 word of minus infinity denotes; it is only ever compared with itself. -/
abbrev negInf : EReal := Ideal.ofBits .f32 0xFF800000#32

/-- The softmax of the row `f` at its member `l`: the maximum is folded from `negInf`. -/
def softmaxAt {c : Nat} (f : Fin c → EReal) (l : Fin c) : EReal :=
  Ideal.div (Ideal.exp (f l - (Finset.univ : Finset (Fin c)).fold max negInf f))
    (∑ k : Fin c, Ideal.exp (f k - (Finset.univ : Finset (Fin c)).fold max negInf f))

/-! ## The vector program, rank 3 -/

section Vec
variable {n0 n1 n2 : Nat}

/-- A reduced array [a, b], given a unit last axis and broadcast along it to [a, b, c], reads at
    (p, g, l) what it held at (p, g). -/
theorem keepdims3_apply {α : Type} (v : (⟨2, ![n0, n1]⟩ : Shape).Idx → α)
    (hc : (⟨2, ![n0, n1]⟩ : Shape).ShapeCasts ⟨3, ![n0, n1, 1]⟩)
    (hb : (⟨3, ![n0, n1, 1]⟩ : Shape).Broadcasts ⟨3, ![n0, n1, n2]⟩)
    (p : Fin n0) (g : Fin n1) (l : Fin n2) :
    broadcastTo ⟨3, ![n0, n1, n2]⟩ (shapeCast ⟨3, ![n0, n1, 1]⟩ v hc) hb (ix3 p g l) = v (ix2 p g) := by
  rw [broadcastTo_apply _ hb (ix3 p g l) (ix3 p g (⟨0, Nat.one_pos⟩ : Fin 1)) (fun a => by
    match a with
    | ⟨0, _⟩ =>
      show p.val = if n0 = 1 then 0 else p.val
      split
      · have := p.isLt; omega
      · rfl
    | ⟨1, _⟩ =>
      show g.val = if n1 = 1 then 0 else g.val
      split
      · have := g.isLt; omega
      · rfl
    | ⟨2, _⟩ =>
      show 0 = if (1 : Nat) = 1 then 0 else l.val
      rw [if_pos rfl])]
  exact shapeCast_apply v hc _ (ix2 p g) (by
    rw [Shape.rowMajor_val_two, Shape.rowMajor_val_three]
    show p.val * n1 + g.val = (p.val * n1 + g.val) * 1 + 0
    omega)

/-- The index of [a, b, c] over (p, g) of [a, b] with `k` on the reduced last axis is (p, g, k). -/
theorem lift3 (hr : (⟨3, ![n0, n1, n2]⟩ : Shape).Reduces [2] ⟨2, ![n0, n1]⟩) (p : Fin n0) (g : Fin n1) (k : Fin n2) :
    hr.lift (ix2 p g) k = ix3 p g k := by
  funext a
  apply Fin.ext
  match a with
  | ⟨0, _⟩ => rfl
  | ⟨1, _⟩ => rfl
  | ⟨2, _⟩ => rfl

variable {F : FTy → Type} [FloatOps F]

/-- The vector program: subtract the lane maximum, exponentiate, divide by the lane sum. -/
def vecSoftmax3 (X : FVec F ⟨3, ![n0, n1, n2]⟩ .f32)
    (hr : (⟨3, ![n0, n1, n2]⟩ : Shape).Reduces [2] ⟨2, ![n0, n1]⟩)
    (hc : (⟨2, ![n0, n1]⟩ : Shape).ShapeCasts ⟨3, ![n0, n1, 1]⟩)
    (hb : (⟨3, ![n0, n1, 1]⟩ : Shape).Broadcasts ⟨3, ![n0, n1, n2]⟩)
    (hφ : FKind.Formats .f32) (hmax : (0xFF800000#32 : BitVec 32) = FKind.maximumf.neutral .f32 hφ)
    (hadd : (0x00000000#32 : BitVec 32) = FKind.add.neutral .f32 hφ) : FVec F ⟨3, ![n0, n1, n2]⟩ .f32 :=
  divf
    (exp (subf X (broadcastTo ⟨3, ![n0, n1, n2]⟩ (shapeCast ⟨3, ![n0, n1, 1]⟩
      (multiReduction .maximumf [2] ⟨2, ![n0, n1]⟩ X 0xFF800000#32 hr hφ hmax) hc) hb)))
    (broadcastTo ⟨3, ![n0, n1, n2]⟩ (shapeCast ⟨3, ![n0, n1, 1]⟩
      (multiReduction .add [2] ⟨2, ![n0, n1]⟩
        (exp (subf X (broadcastTo ⟨3, ![n0, n1, n2]⟩ (shapeCast ⟨3, ![n0, n1, 1]⟩
          (multiReduction .maximumf [2] ⟨2, ![n0, n1]⟩ X 0xFF800000#32 hr hφ hmax) hc) hb)))
        0x00000000#32 hr hφ hadd) hc) hb)

end Vec

/-- Read at (p, g, l), the vector program is the softmax of row (p, g, ·) at `l`. -/
theorem vecSoftmax3_apply {n0 n1 n2 : Nat} (X : FVec Ideal ⟨3, ![n0, n1, n2]⟩ .f32)
    (hr : (⟨3, ![n0, n1, n2]⟩ : Shape).Reduces [2] ⟨2, ![n0, n1]⟩)
    (hc : (⟨2, ![n0, n1]⟩ : Shape).ShapeCasts ⟨3, ![n0, n1, 1]⟩)
    (hb : (⟨3, ![n0, n1, 1]⟩ : Shape).Broadcasts ⟨3, ![n0, n1, n2]⟩)
    (hφ : FKind.Formats .f32) (hmax : (0xFF800000#32 : BitVec 32) = FKind.maximumf.neutral .f32 hφ)
    (hadd : (0x00000000#32 : BitVec 32) = FKind.add.neutral .f32 hφ) (p : Fin n0) (g : Fin n1) (l : Fin n2) :
    vecSoftmax3 (F := Ideal) X hr hc hb hφ hmax hadd (ix3 p g l) = softmaxAt (fun k : Fin n2 => X (ix3 p g k)) l := by
  -- the lane maximum at (p, g): the fold of `max` over the row
  have hM : multiReduction .maximumf [2] ⟨2, ![n0, n1]⟩ X 0xFF800000#32 hr hφ hmax (ix2 p g)
      = (Finset.univ : Finset (Fin n2)).fold max negInf (fun k : Fin n2 => X (ix3 p g k)) := by
    rw [Ideal.multiReduction_maximumf_single]
    exact congrArg (fun f : Fin n2 → EReal => (Finset.univ : Finset (Fin n2)).fold max negInf f)
      (funext fun k => congrArg X (lift3 hr p g k))
  -- the exponentials at (p, g, k)
  have hE : ∀ k : Fin n2,
      exp (subf X (broadcastTo ⟨3, ![n0, n1, n2]⟩ (shapeCast ⟨3, ![n0, n1, 1]⟩
        (multiReduction .maximumf [2] ⟨2, ![n0, n1]⟩ X 0xFF800000#32 hr hφ hmax) hc) hb)) (ix3 p g k)
      = Ideal.exp (X (ix3 p g k) - (Finset.univ : Finset (Fin n2)).fold max negInf (fun k : Fin n2 => X (ix3 p g k))) := by
    intro k
    show Ideal.exp (X (ix3 p g k) - broadcastTo ⟨3, ![n0, n1, n2]⟩ (shapeCast ⟨3, ![n0, n1, 1]⟩
        (multiReduction .maximumf [2] ⟨2, ![n0, n1]⟩ X 0xFF800000#32 hr hφ hmax) hc) hb (ix3 p g k)) = _
    rw [keepdims3_apply, hM]
  unfold vecSoftmax3 softmaxAt
  show Ideal.div _ _ = _
  rw [hE l, keepdims3_apply, Ideal.multiReduction_add_single]
  refine congrArg (Ideal.div _) ?_
  exact Finset.sum_congr rfl fun k _ => by rw [lift3 hr p g k, hE k]

/-! ## The host program, rank 4 -/

section Host
variable {n0 n1 n2 n3 : Nat}

/-- A reduced array [a, b, g], broadcast to [a, b, g, 1] and then along the unit axis to [a, b, g, c],
    reads at (a, b, g, l) what it held at (a, b, g). -/
theorem keepdims4_apply {α : Type} (v : (⟨3, ![n0, n1, n2]⟩ : Shape).Idx → α)
    (h1 : (⟨3, ![n0, n1, n2]⟩ : Shape).BroadcastsInDim ⟨4, ![n0, n1, n2, 1]⟩ (![0, 1, 2] : Fin 3 → Fin 4))
    (h2 : (⟨4, ![n0, n1, n2, 1]⟩ : Shape).BroadcastsInDim ⟨4, ![n0, n1, n2, n3]⟩ (![0, 1, 2, 3] : Fin 4 → Fin 4))
    (a : Fin n0) (b : Fin n1) (g : Fin n2) (l : Fin n3) :
    broadcastInDim ⟨4, ![n0, n1, n2, n3]⟩ ![0, 1, 2, 3] h2 (broadcastInDim ⟨4, ![n0, n1, n2, 1]⟩ ![0, 1, 2] h1 v) (ix4 a b g l)
      = v (ix3 a b g) := by
  rw [broadcastInDim_apply _ h2 _ (ix4 a b g l) (ix4 a b g (⟨0, Nat.one_pos⟩ : Fin 1)) (fun d => by
    match d with
    | ⟨0, _⟩ =>
      show a.val = if n0 = 1 then 0 else a.val
      split
      · have := a.isLt; omega
      · rfl
    | ⟨1, _⟩ =>
      show b.val = if n1 = 1 then 0 else b.val
      split
      · have := b.isLt; omega
      · rfl
    | ⟨2, _⟩ =>
      show g.val = if n2 = 1 then 0 else g.val
      split
      · have := g.isLt; omega
      · rfl
    | ⟨3, _⟩ =>
      show 0 = if (1 : Nat) = 1 then 0 else l.val
      rw [if_pos rfl])]
  exact broadcastInDim_apply _ h1 v _ (ix3 a b g) (fun d => by
    match d with
    | ⟨0, _⟩ =>
      show a.val = if n0 = 1 then 0 else a.val
      split
      · have := a.isLt; omega
      · rfl
    | ⟨1, _⟩ =>
      show b.val = if n1 = 1 then 0 else b.val
      split
      · have := b.isLt; omega
      · rfl
    | ⟨2, _⟩ =>
      show g.val = if n2 = 1 then 0 else g.val
      split
      · have := g.isLt; omega
      · rfl)

/-- The index of [a, b, g, c] over (a, b, g) with `k` on the reduced last axis is (a, b, g, k). -/
theorem lift4 (hr : (⟨4, ![n0, n1, n2, n3]⟩ : Shape).Reduces [3] ⟨3, ![n0, n1, n2]⟩) (a : Fin n0) (b : Fin n1) (g : Fin n2)
    (k : Fin n3) : hr.lift (ix3 a b g) k = ix4 a b g k := by
  funext d
  apply Fin.ext
  match d with
  | ⟨0, _⟩ => rfl
  | ⟨1, _⟩ => rfl
  | ⟨2, _⟩ => rfl
  | ⟨3, _⟩ => rfl

variable {F : FTy → Type} [FloatOps F]

/-- The host program: the maximum over axis 3 joined with minus infinity, subtracted, exponentiated, divided by
    the sum over axis 3 (from zero). -/
def hostSoftmax4 (X : FVec F ⟨4, ![n0, n1, n2, n3]⟩ .f32)
    (hred : (⟨4, ![n0, n1, n2, n3]⟩ : Shape).ReducesTo [3] ⟨3, ![n0, n1, n2]⟩)
    (hu : 0 < (⟨0, ![]⟩ : Shape).numel)
    (h0 : (⟨0, ![]⟩ : Shape).BroadcastsInDim ⟨3, ![n0, n1, n2]⟩ (![] : Fin 0 → Fin 3))
    (h1 : (⟨3, ![n0, n1, n2]⟩ : Shape).BroadcastsInDim ⟨4, ![n0, n1, n2, 1]⟩ (![0, 1, 2] : Fin 3 → Fin 4))
    (h2 : (⟨4, ![n0, n1, n2, 1]⟩ : Shape).BroadcastsInDim ⟨4, ![n0, n1, n2, n3]⟩ (![0, 1, 2, 3] : Fin 4 → Fin 4)) :
    FVec F ⟨4, ![n0, n1, n2, n3]⟩ .f32 :=
  Host.divf
    (Host.exp (subf X (broadcastInDim ⟨4, ![n0, n1, n2, n3]⟩ ![0, 1, 2, 3] h2 (broadcastInDim ⟨4, ![n0, n1, n2, 1]⟩ ![0, 1, 2] h1
      (maximumf (broadcastInDim ⟨3, ![n0, n1, n2]⟩ ![] h0 (constant ⟨0, ![]⟩ .f32 0xFF800000#32))
        (Host.reduce FloatOps.maximumf X (constant ⟨0, ![]⟩ .f32 0xFF800000#32) hred hu))))))
    (broadcastInDim ⟨4, ![n0, n1, n2, n3]⟩ ![0, 1, 2, 3] h2 (broadcastInDim ⟨4, ![n0, n1, n2, 1]⟩ ![0, 1, 2] h1
      (Host.reduceAdd
        (Host.exp (subf X (broadcastInDim ⟨4, ![n0, n1, n2, n3]⟩ ![0, 1, 2, 3] h2 (broadcastInDim ⟨4, ![n0, n1, n2, 1]⟩ ![0, 1, 2] h1
          (maximumf (broadcastInDim ⟨3, ![n0, n1, n2]⟩ ![] h0 (constant ⟨0, ![]⟩ .f32 0xFF800000#32))
            (Host.reduce FloatOps.maximumf X (constant ⟨0, ![]⟩ .f32 0xFF800000#32) hred hu))))))
        (constant ⟨0, ![]⟩ .f32 0x00000000#32) hred hu)))

end Host

/-- Read at (a, b, g, l), the host program is the softmax of row (a, b, g, ·) at `l`. -/
theorem hostSoftmax4_apply {n0 n1 n2 n3 : Nat} (X : FVec Ideal ⟨4, ![n0, n1, n2, n3]⟩ .f32)
    (hred : (⟨4, ![n0, n1, n2, n3]⟩ : Shape).ReducesTo [3] ⟨3, ![n0, n1, n2]⟩)
    (hr : (⟨4, ![n0, n1, n2, n3]⟩ : Shape).Reduces [3] ⟨3, ![n0, n1, n2]⟩)
    (hu : 0 < (⟨0, ![]⟩ : Shape).numel)
    (h0 : (⟨0, ![]⟩ : Shape).BroadcastsInDim ⟨3, ![n0, n1, n2]⟩ (![] : Fin 0 → Fin 3))
    (h1 : (⟨3, ![n0, n1, n2]⟩ : Shape).BroadcastsInDim ⟨4, ![n0, n1, n2, 1]⟩ (![0, 1, 2] : Fin 3 → Fin 4))
    (h2 : (⟨4, ![n0, n1, n2, 1]⟩ : Shape).BroadcastsInDim ⟨4, ![n0, n1, n2, n3]⟩ (![0, 1, 2, 3] : Fin 4 → Fin 4))
    (a : Fin n0) (b : Fin n1) (g : Fin n2) (l : Fin n3) :
    hostSoftmax4 (F := Ideal) X hred hu h0 h1 h2 (ix4 a b g l) = softmaxAt (fun k : Fin n3 => X (ix4 a b g k)) l := by
  -- the maximum at (a, b, g): joining the fold from minus infinity with minus infinity changes nothing
  have hM : maximumf (broadcastInDim ⟨3, ![n0, n1, n2]⟩ ![] h0 (constant (F := Ideal) ⟨0, ![]⟩ .f32 0xFF800000#32))
        (Host.reduce FloatOps.maximumf X (constant (F := Ideal) ⟨0, ![]⟩ .f32 0xFF800000#32) hred hu) (ix3 a b g)
      = (Finset.univ : Finset (Fin n3)).fold max negInf (fun k : Fin n3 => X (ix4 a b g k)) := by
    show max (broadcastInDim ⟨3, ![n0, n1, n2]⟩ ![] h0 (constant (F := Ideal) ⟨0, ![]⟩ .f32 0xFF800000#32) (ix3 a b g))
        (Host.reduce FloatOps.maximumf X (constant (F := Ideal) ⟨0, ![]⟩ .f32 0xFF800000#32) hred hu (ix3 a b g)) = _
    rw [Host.reduce_eq_fold_single FloatOps.maximumf X _ hred hr hu (ix3 a b g),
      broadcastInDim_apply _ h0 _ (ix3 a b g) ix0 (fun d => d.elim0)]
    show max negInf (Finset.univ.fold max negInf (X ∘ hr.lift (ix3 a b g))) = _
    rw [max_eq_right ((Finset.le_fold_max _).2 (Or.inl le_rfl))]
    exact congrArg (fun f : Fin n3 → EReal => (Finset.univ : Finset (Fin n3)).fold max negInf f)
      (funext fun k => congrArg X (lift4 hr a b g k))
  -- the exponentials at (a, b, g, k)
  have hE : ∀ k : Fin n3,
      Host.exp (subf X (broadcastInDim ⟨4, ![n0, n1, n2, n3]⟩ ![0, 1, 2, 3] h2 (broadcastInDim ⟨4, ![n0, n1, n2, 1]⟩ ![0, 1, 2] h1
          (maximumf (broadcastInDim ⟨3, ![n0, n1, n2]⟩ ![] h0 (constant (F := Ideal) ⟨0, ![]⟩ .f32 0xFF800000#32))
            (Host.reduce FloatOps.maximumf X (constant (F := Ideal) ⟨0, ![]⟩ .f32 0xFF800000#32) hred hu))))) (ix4 a b g k)
      = Ideal.exp (X (ix4 a b g k) - (Finset.univ : Finset (Fin n3)).fold max negInf (fun k : Fin n3 => X (ix4 a b g k))) := by
    intro k
    show Ideal.exp (X (ix4 a b g k) - broadcastInDim ⟨4, ![n0, n1, n2, n3]⟩ ![0, 1, 2, 3] h2 (broadcastInDim ⟨4, ![n0, n1, n2, 1]⟩ ![0, 1, 2] h1
          (maximumf (broadcastInDim ⟨3, ![n0, n1, n2]⟩ ![] h0 (constant (F := Ideal) ⟨0, ![]⟩ .f32 0xFF800000#32))
            (Host.reduce FloatOps.maximumf X (constant (F := Ideal) ⟨0, ![]⟩ .f32 0xFF800000#32) hred hu))) (ix4 a b g k)) = _
    rw [keepdims4_apply, hM]
  unfold hostSoftmax4 softmaxAt
  show Ideal.div _ _ = _
  rw [hE l, keepdims4_apply]
  refine congrArg (Ideal.div _) ?_
  show Ideal.hostReduceAdd hred _ (Ideal.ofBits .f32 0x00000000#32) (ix3 a b g) = _
  rw [Ideal.hostReduceAdd_single hred hr, Ideal.ofBits_zero_f32, zero_add]
  exact Finset.sum_congr rfl fun k _ => by rw [lift4 hr a b g k, hE k]

end Idealize.ShloMosaic.LastAxisSoftmax

end
-- ==== Proof.LibKeepdims.lean ====
/-
  Two layout operations read at an index, for a reduction that keeps its axis as a unit column:
  a vector [a] cast to a column [a, 1], and a column [a, 1] broadcast along the rows of [a, b].
  Together: (broadcast (cast v)) (p, c) = v p — every entry of row p is the row's reduced value.
-/
import Idealize.ShloMosaic.Lib.Pipeline.Value
import Idealize.ShloMosaic.Lib.ValueIdx
import Idealize.ShloMosaic.Lib.ValueLayout

noncomputable section

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector's entry `p` spread along row `p`: the cast to a column followed by the broadcast along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) := by
  rw [broadcastTo_a1_ab_apply, shapeCast_a_a1_apply]

end Cert.LibKeepdims

end
-- ==== Proof.LibRowSoftmax.lean ====
/-
  Softmax along the rows of a matrix and along the last axis of a rank-3 array, read at an index, on the
  extended reals: the low-rank companions of the rank-3 vector form and the rank-4 host form.

  * a vector program on [a, b]: the row maximum and the row sum are lane reductions to [a], each kept as a
    unit column [a, 1] and broadcast back along the rows (`vecSoftmax2`);
  * a host program on [a, b, c]: the maximum and the sum are reductions over axis 2 to [a, b], the maximum
    joined once more with minus infinity, each broadcast back through [a, b, 1] (`hostSoftmax3`).
  Read at an index both are `softmaxAt` of the row through that index. No law of arithmetic is used beyond
  max b (fold max b f) = fold max b f and 0 + s = s.
-/
import proofs.«166768_j20882130993308_2_alg».proof.Proof.LibLastAxisSoftmax
import proofs.«166768_j20882130993308_2_alg».proof.Proof.LibKeepdims

noncomputable section

open scoped BigOperators

namespace Idealize.ShloMosaic.LastAxisSoftmax

open Idealize.ShloMosaic Idealize.ShloMosaic.ValueIdx

/-! ## The vector program, rank 2 -/

section Vec2
variable {n0 n1 : Nat}

/-- The index of [a, b] over p of [a] with `k` on the reduced last axis is (p, k). -/
theorem lift2 (hr : (⟨2, ![n0, n1]⟩ : Shape).Reduces [1] ⟨1, ![n0]⟩) (p : Fin n0) (k : Fin n1) :
    hr.lift (ix1 p) k = ix2 p k := by
  funext a
  apply Fin.ext
  match a with
  | ⟨0, _⟩ => rfl
  | ⟨1, _⟩ => rfl

variable {F : FTy → Type} [FloatOps F]

/-- The vector program: subtract the row maximum, exponentiate, divide by the row sum. -/
def vecSoftmax2 (X : FVec F ⟨2, ![n0, n1]⟩ .f32)
    (hr : (⟨2, ![n0, n1]⟩ : Shape).Reduces [1] ⟨1, ![n0]⟩)
    (hc : (⟨1, ![n0]⟩ : Shape).ShapeCasts ⟨2, ![n0, 1]⟩)
    (hb : (⟨2, ![n0, 1]⟩ : Shape).Broadcasts ⟨2, ![n0, n1]⟩)
    (hφ : FKind.Formats .f32) (hmax : (0xFF800000#32 : BitVec 32) = FKind.maximumf.neutral .f32 hφ)
    (hadd : (0x00000000#32 : BitVec 32) = FKind.add.neutral .f32 hφ) : FVec F ⟨2, ![n0, n1]⟩ .f32 :=
  divf
    (exp (subf X (broadcastTo ⟨2, ![n0, n1]⟩ (shapeCast ⟨2, ![n0, 1]⟩
      (multiReduction .maximumf [1] ⟨1, ![n0]⟩ X 0xFF800000#32 hr hφ hmax) hc) hb)))
    (broadcastTo ⟨2, ![n0, n1]⟩ (shapeCast ⟨2, ![n0, 1]⟩
      (multiReduction .add [1] ⟨1, ![n0]⟩
        (exp (subf X (broadcastTo ⟨2, ![n0, n1]⟩ (shapeCast ⟨2, ![n0, 1]⟩
          (multiReduction .maximumf [1] ⟨1, ![n0]⟩ X 0xFF800000#32 hr hφ hmax) hc) hb)))
        0x00000000#32 hr hφ hadd) hc) hb)

end Vec2

/-- Read at (p, l), the vector program is the softmax of row p at `l`. -/
theorem vecSoftmax2_apply {n0 n1 : Nat} (X : FVec Ideal ⟨2, ![n0, n1]⟩ .f32)
    (hr : (⟨2, ![n0, n1]⟩ : Shape).Reduces [1] ⟨1, ![n0]⟩)
    (hc : (⟨1, ![n0]⟩ : Shape).ShapeCasts ⟨2, ![n0, 1]⟩)
    (hb : (⟨2, ![n0, 1]⟩ : Shape).Broadcasts ⟨2, ![n0, n1]⟩)
    (hφ : FKind.Formats .f32) (hmax : (0xFF800000#32 : BitVec 32) = FKind.maximumf.neutral .f32 hφ)
    (hadd : (0x00000000#32 : BitVec 32) = FKind.add.neutral .f32 hφ) (p : Fin n0) (l : Fin n1) :
    vecSoftmax2 (F := Ideal) X hr hc hb hφ hmax hadd (ix2 p l) = softmaxAt (fun k : Fin n1 => X (ix2 p k)) l := by
  -- the row maximum at p: the fold of `max` over the row
  have hM : multiReduction .maximumf [1] ⟨1, ![n0]⟩ X 0xFF800000#32 hr hφ hmax (ix1 p)
      = (Finset.univ : Finset (Fin n1)).fold max negInf (fun k : Fin n1 => X (ix2 p k)) := by
    rw [Ideal.multiReduction_maximumf_single]
    exact congrArg (fun f : Fin n1 → EReal => (Finset.univ : Finset (Fin n1)).fold max negInf f)
      (funext fun k => congrArg X (lift2 hr p k))
  -- the exponentials at (p, k)
  have hE : ∀ k : Fin n1,
      exp (subf X (broadcastTo ⟨2, ![n0, n1]⟩ (shapeCast ⟨2, ![n0, 1]⟩
        (multiReduction .maximumf [1] ⟨1, ![n0]⟩ X 0xFF800000#32 hr hφ hmax) hc) hb)) (ix2 p k)
      = Ideal.exp (X (ix2 p k) - (Finset.univ : Finset (Fin n1)).fold max negInf (fun k : Fin n1 => X (ix2 p k))) := by
    intro k
    show Ideal.exp (X (ix2 p k) - broadcastTo ⟨2, ![n0, n1]⟩ (shapeCast ⟨2, ![n0, 1]⟩
        (multiReduction .maximumf [1] ⟨1, ![n0]⟩ X 0xFF800000#32 hr hφ hmax) hc) hb (ix2 p k)) = _
    rw [Cert.LibKeepdims.keepdims_apply, hM]
  unfold vecSoftmax2 softmaxAt
  show Ideal.div _ _ = _
  rw [hE l, Cert.LibKeepdims.keepdims_apply, Ideal.multiReduction_add_single]
  refine congrArg (Ideal.div _) ?_
  exact Finset.sum_congr rfl fun k _ => by rw [lift2 hr p k, hE k]

end Idealize.ShloMosaic.LastAxisSoftmax

end
-- ==== Proof.AttnBlock.lean ====
/-
  One block of the attention kernel: the body of the second kernel read at an index, at the exact instance.
  From a block q of 512 query rows, the 2048 key rows k and value rows v of the same batch, the transposed
  projection weights w and the projection bias b, the body stores
    (0, r, e) ↦ ∑ d, (∑ k', softmax_k' (row r of (q · kᵀ) · 1/32) · v (0, k', d)) · w (d, e) + b (0, e).
-/
import proofs.«166768_j20882130993308_2_alg».proof.Proof.Gen.KernelIdeal.Skeleton
import proofs.«166768_j20882130993308_2_alg».proof.Proof.LibRowSoftmax
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.AttnBlock

open Cert.KernelIdeal Cert.KernelIdeal.Gen Idealize.ShloMosaic Idealize.ShloMosaic.ValueIdx
open Idealize.ShloMosaic.LastAxisSoftmax

theorem matmul_qk_lhs_nc (i : S512x2048.Idx) (u : dot_S512x1024_S2048x1024_S512x2048_1_1_0_0_n_n.contr.Idx) :
    (dot_S512x1024_S2048x1024_S512x2048_1_1_0_0_n_n.lhsIdx i u 0).val = (i 0).val := by
  unfold DotDims.lhsIdx
  rw [dif_neg (show ¬(0 : Fin S512x1024.rank) ∈ dot_S512x1024_S2048x1024_S512x2048_1_1_0_0_n_n.lhsBatch by decide),
    dif_pos (show (0 : Fin S512x1024.rank) ∈ dot_S512x1024_S2048x1024_S512x2048_1_1_0_0_n_n.lhsNonContracting by decide)]
  rfl
theorem matmul_qk_lhs_c (i : S512x2048.Idx) (u : dot_S512x1024_S2048x1024_S512x2048_1_1_0_0_n_n.contr.Idx) :
    (dot_S512x1024_S2048x1024_S512x2048_1_1_0_0_n_n.lhsIdx i u 1).val = (u ⟨0, by decide⟩).val :=
  dot_S512x1024_S2048x1024_S512x2048_1_1_0_0_n_n.lhsIdx_val_of_single rfl i u
theorem matmul_qk_rhs_nc (i : S512x2048.Idx) (u : dot_S512x1024_S2048x1024_S512x2048_1_1_0_0_n_n.contr.Idx) :
    (dot_S512x1024_S2048x1024_S512x2048_1_1_0_0_n_n.rhsIdx i u 0).val = (i 1).val := by
  unfold DotDims.rhsIdx
  rw [dif_neg (show ¬(0 : Fin S2048x1024.rank) ∈ dot_S512x1024_S2048x1024_S512x2048_1_1_0_0_n_n.rhsBatch by decide),
    dif_pos (show (0 : Fin S2048x1024.rank) ∈ dot_S512x1024_S2048x1024_S512x2048_1_1_0_0_n_n.rhsNonContracting by decide)]
  rfl
theorem matmul_qk_rhs_c (i : S512x2048.Idx) (u : dot_S512x1024_S2048x1024_S512x2048_1_1_0_0_n_n.contr.Idx) :
    (dot_S512x1024_S2048x1024_S512x2048_1_1_0_0_n_n.rhsIdx i u 1).val = (u ⟨0, by decide⟩).val :=
  dot_S512x1024_S2048x1024_S512x2048_1_1_0_0_n_n.rhsIdx_val_of_single rfl i u

/-- Query rows against key rows: a [512, 1024] block times the transpose of a [2048, 1024] block into a zero accumulator, read at (r, k): the sum over the shared feature axis. -/
theorem matmul_qk_apply (A : FVec Ideal S512x1024 .bf16) (B : FVec Ideal S2048x1024 .bf16) (r : Fin 512) (k : Fin 2048) :
    matmul dot_S512x1024_S2048x1024_S512x2048_1_1_0_0_n_n none A B (constant (F := Ideal) S512x2048 .f32 0x00000000#32) (ix2 r k)
      = ∑ j : Fin 1024, A (ix2 r j) * B (ix2 k j) := by
  refine (Ideal.matmul_constant_zero_apply dot_S512x1024_S2048x1024_S512x2048_1_1_0_0_n_n none A B (ix2 r k)).trans ?_
  rw [← Equiv.sum_comp (contrEquiv1 dot_S512x1024_S2048x1024_S512x2048_1_1_0_0_n_n 1024 rfl rfl).symm]
  refine Finset.sum_congr rfl fun j _ => ?_
  have hj := contrEquiv1_symm_val dot_S512x1024_S2048x1024_S512x2048_1_1_0_0_n_n 1024 rfl rfl j
  have el : dot_S512x1024_S2048x1024_S512x2048_1_1_0_0_n_n.lhsIdx (ix2 r k) ((contrEquiv1 dot_S512x1024_S2048x1024_S512x2048_1_1_0_0_n_n 1024 rfl rfl).symm j) = ix2 r j :=
    funext fun a => Fin.ext (by
      match a with
      | ⟨0, _⟩ => exact matmul_qk_lhs_nc _ _
      | ⟨1, _⟩ => exact (matmul_qk_lhs_c _ _).trans hj)
  have er : dot_S512x1024_S2048x1024_S512x2048_1_1_0_0_n_n.rhsIdx (ix2 r k) ((contrEquiv1 dot_S512x1024_S2048x1024_S512x2048_1_1_0_0_n_n 1024 rfl rfl).symm j) = ix2 k j :=
    funext fun a => Fin.ext (by
      match a with
      | ⟨0, _⟩ => exact matmul_qk_rhs_nc _ _
      | ⟨1, _⟩ => exact (matmul_qk_rhs_c _ _).trans hj)
  rw [el, er]

theorem matmul_av_lhs_nc (i : S512x1024.Idx) (u : dot_S512x2048_S2048x1024_S512x1024_1_0_0_1_n_n.contr.Idx) :
    (dot_S512x2048_S2048x1024_S512x1024_1_0_0_1_n_n.lhsIdx i u 0).val = (i 0).val := by
  unfold DotDims.lhsIdx
  rw [dif_neg (show ¬(0 : Fin S512x2048.rank) ∈ dot_S512x2048_S2048x1024_S512x1024_1_0_0_1_n_n.lhsBatch by decide),
    dif_pos (show (0 : Fin S512x2048.rank) ∈ dot_S512x2048_S2048x1024_S512x1024_1_0_0_1_n_n.lhsNonContracting by decide)]
  rfl
theorem matmul_av_lhs_c (i : S512x1024.Idx) (u : dot_S512x2048_S2048x1024_S512x1024_1_0_0_1_n_n.contr.Idx) :
    (dot_S512x2048_S2048x1024_S512x1024_1_0_0_1_n_n.lhsIdx i u 1).val = (u ⟨0, by decide⟩).val :=
  dot_S512x2048_S2048x1024_S512x1024_1_0_0_1_n_n.lhsIdx_val_of_single rfl i u
theorem matmul_av_rhs_nc (i : S512x1024.Idx) (u : dot_S512x2048_S2048x1024_S512x1024_1_0_0_1_n_n.contr.Idx) :
    (dot_S512x2048_S2048x1024_S512x1024_1_0_0_1_n_n.rhsIdx i u 1).val = (i 1).val := by
  unfold DotDims.rhsIdx
  rw [dif_neg (show ¬(1 : Fin S2048x1024.rank) ∈ dot_S512x2048_S2048x1024_S512x1024_1_0_0_1_n_n.rhsBatch by decide),
    dif_pos (show (1 : Fin S2048x1024.rank) ∈ dot_S512x2048_S2048x1024_S512x1024_1_0_0_1_n_n.rhsNonContracting by decide)]
  rfl
theorem matmul_av_rhs_c (i : S512x1024.Idx) (u : dot_S512x2048_S2048x1024_S512x1024_1_0_0_1_n_n.contr.Idx) :
    (dot_S512x2048_S2048x1024_S512x1024_1_0_0_1_n_n.rhsIdx i u 0).val = (u ⟨0, by decide⟩).val :=
  dot_S512x2048_S2048x1024_S512x1024_1_0_0_1_n_n.rhsIdx_val_of_single rfl i u

/-- Attention weights against value rows: a [512, 2048] block times a [2048, 1024] block into a zero accumulator, read at (r, d): the sum over the key axis. -/
theorem matmul_av_apply (A : FVec Ideal S512x2048 .bf16) (B : FVec Ideal S2048x1024 .bf16) (r : Fin 512) (d : Fin 1024) :
    matmul dot_S512x2048_S2048x1024_S512x1024_1_0_0_1_n_n none A B (constant (F := Ideal) S512x1024 .f32 0x00000000#32) (ix2 r d)
      = ∑ j : Fin 2048, A (ix2 r j) * B (ix2 j d) := by
  refine (Ideal.matmul_constant_zero_apply dot_S512x2048_S2048x1024_S512x1024_1_0_0_1_n_n none A B (ix2 r d)).trans ?_
  rw [← Equiv.sum_comp (contrEquiv1 dot_S512x2048_S2048x1024_S512x1024_1_0_0_1_n_n 2048 rfl rfl).symm]
  refine Finset.sum_congr rfl fun j _ => ?_
  have hj := contrEquiv1_symm_val dot_S512x2048_S2048x1024_S512x1024_1_0_0_1_n_n 2048 rfl rfl j
  have el : dot_S512x2048_S2048x1024_S512x1024_1_0_0_1_n_n.lhsIdx (ix2 r d) ((contrEquiv1 dot_S512x2048_S2048x1024_S512x1024_1_0_0_1_n_n 2048 rfl rfl).symm j) = ix2 r j :=
    funext fun a => Fin.ext (by
      match a with
      | ⟨0, _⟩ => exact matmul_av_lhs_nc _ _
      | ⟨1, _⟩ => exact (matmul_av_lhs_c _ _).trans hj)
  have er : dot_S512x2048_S2048x1024_S512x1024_1_0_0_1_n_n.rhsIdx (ix2 r d) ((contrEquiv1 dot_S512x2048_S2048x1024_S512x1024_1_0_0_1_n_n 2048 rfl rfl).symm j) = ix2 j d :=
    funext fun a => Fin.ext (by
      match a with
      | ⟨1, _⟩ => exact matmul_av_rhs_nc _ _
      | ⟨0, _⟩ => exact (matmul_av_rhs_c _ _).trans hj)
  rw [el, er]

theorem matmul_pr_lhs_nc (i : S512x1024.Idx) (u : dot_S512x1024_S1024x1024_S512x1024_1_0_0_1_n_n.contr.Idx) :
    (dot_S512x1024_S1024x1024_S512x1024_1_0_0_1_n_n.lhsIdx i u 0).val = (i 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl
theorem matmul_pr_lhs_c (i : S512x1024.Idx) (u : dot_S512x1024_S1024x1024_S512x1024_1_0_0_1_n_n.contr.Idx) :
    (dot_S512x1024_S1024x1024_S512x1024_1_0_0_1_n_n.lhsIdx i u 1).val = (u ⟨0, by decide⟩).val :=
  dot_S512x1024_S1024x1024_S512x1024_1_0_0_1_n_n.lhsIdx_val_of_single rfl i u
theorem matmul_pr_rhs_nc (i : S512x1024.Idx) (u : dot_S512x1024_S1024x1024_S512x1024_1_0_0_1_n_n.contr.Idx) :
    (dot_S512x1024_S1024x1024_S512x1024_1_0_0_1_n_n.rhsIdx i u 1).val = (i 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl
theorem matmul_pr_rhs_c (i : S512x1024.Idx) (u : dot_S512x1024_S1024x1024_S512x1024_1_0_0_1_n_n.contr.Idx) :
    (dot_S512x1024_S1024x1024_S512x1024_1_0_0_1_n_n.rhsIdx i u 0).val = (u ⟨0, by decide⟩).val :=
  dot_S512x1024_S1024x1024_S512x1024_1_0_0_1_n_n.rhsIdx_val_of_single rfl i u

/-- The output projection: a [512, 1024] block times a [1024, 1024] block into a zero accumulator, read at (r, e): the sum over the feature axis. -/
theorem matmul_pr_apply (A : FVec Ideal S512x1024 .bf16) (B : FVec Ideal S1024x1024 .bf16) (r : Fin 512) (e : Fin 1024) :
    matmul dot_S512x1024_S1024x1024_S512x1024_1_0_0_1_n_n none A B (constant (F := Ideal) S512x1024 .f32 0x00000000#32) (ix2 r e)
      = ∑ j : Fin 1024, A (ix2 r j) * B (ix2 j e) := by
  refine (Ideal.matmul_constant_zero_apply dot_S512x1024_S1024x1024_S512x1024_1_0_0_1_n_n none A B (ix2 r e)).trans ?_
  rw [← Equiv.sum_comp (contrEquiv1 dot_S512x1024_S1024x1024_S512x1024_1_0_0_1_n_n 1024 rfl rfl).symm]
  refine Finset.sum_congr rfl fun j _ => ?_
  have hj := contrEquiv1_symm_val dot_S512x1024_S1024x1024_S512x1024_1_0_0_1_n_n 1024 rfl rfl j
  have el : dot_S512x1024_S1024x1024_S512x1024_1_0_0_1_n_n.lhsIdx (ix2 r e) ((contrEquiv1 dot_S512x1024_S1024x1024_S512x1024_1_0_0_1_n_n 1024 rfl rfl).symm j) = ix2 r j :=
    funext fun a => Fin.ext (by
      match a with
      | ⟨0, _⟩ => exact matmul_pr_lhs_nc _ _
      | ⟨1, _⟩ => exact (matmul_pr_lhs_c _ _).trans hj)
  have er : dot_S512x1024_S1024x1024_S512x1024_1_0_0_1_n_n.rhsIdx (ix2 r e) ((contrEquiv1 dot_S512x1024_S1024x1024_S512x1024_1_0_0_1_n_n 1024 rfl rfl).symm j) = ix2 j e :=
    funext fun a => Fin.ext (by
      match a with
      | ⟨1, _⟩ => exact matmul_pr_rhs_nc _ _
      | ⟨0, _⟩ => exact (matmul_pr_rhs_c _ _).trans hj)
  rw [el, er]

/-- The scaled scores of the block: (q · kᵀ) · 1/32 on [512, 2048]. -/
def scores (v0 : FVec Ideal S1x512x1024 .bf16) (v2 : FVec Ideal S1x2048x1024 .bf16) : FVec Ideal S512x2048 .f32 :=
  mulf (matmul dot_S512x1024_S2048x1024_S512x2048_1_1_0_0_n_n none (shapeCast S512x1024 v0 shapeCasts_S1x512x1024_S512x1024)
      (shapeCast S2048x1024 v2 shapeCasts_S1x2048x1024_S2048x1024) (constant (F := Ideal) S512x2048 .f32 0x00000000#32))
    (broadcast S512x2048 (Scalar.ofBits (F := Ideal) .f32 0x3D000000#32))

theorem scores_apply (v0 : FVec Ideal S1x512x1024 .bf16) (v2 : FVec Ideal S1x2048x1024 .bf16) (r : Fin 512) (k : Fin 2048) :
    scores v0 v2 (ix2 r k)
      = (∑ j : Fin 1024, v0 (ix3 (0 : Fin 1) r j) * v2 (ix3 (0 : Fin 1) k j)) * Ideal.ofBits .f32 0x3D000000#32 := by
  unfold scores
  refine congrArg (· * Ideal.ofBits .f32 0x3D000000#32) ((matmul_qk_apply _ _ r k).trans ?_)
  exact Finset.sum_congr rfl fun j _ => by
    rw [shapeCast_1ab_ab_apply v0, shapeCast_1ab_ab_apply v2]

/-- The attention weights of the block: the row softmax of the scores. -/
def probs (v0 : FVec Ideal S1x512x1024 .bf16) (v2 : FVec Ideal S1x2048x1024 .bf16) : FVec Ideal S512x2048 .f32 :=
  vecSoftmax2 (scores v0 v2) reduces_S512x2048_S512 shapeCasts_S512_S512x1 broadcasts_S512x1_S512x2048 (.inl rfl) rfl rfl

/-- The attention-weighted values of the block on [512, 1024]. -/
def ctxv (v0 : FVec Ideal S1x512x1024 .bf16) (v2 v4 : FVec Ideal S1x2048x1024 .bf16) : FVec Ideal S512x1024 .f32 :=
  matmul dot_S512x2048_S2048x1024_S512x1024_1_0_0_1_n_n none (truncf .bf16 (probs v0 v2) bitsLt_bf16_f32)
    (shapeCast S2048x1024 v4 shapeCasts_S1x2048x1024_S2048x1024) (constant (F := Ideal) S512x1024 .f32 0x00000000#32)

theorem ctxv_apply (v0 : FVec Ideal S1x512x1024 .bf16) (v2 v4 : FVec Ideal S1x2048x1024 .bf16) (r : Fin 512) (d : Fin 1024) :
    ctxv v0 v2 v4 (ix2 r d)
      = ∑ k : Fin 2048, softmaxAt (fun k' : Fin 2048 => scores v0 v2 (ix2 r k')) k * v4 (ix3 (0 : Fin 1) k d) := by
  unfold ctxv
  refine (matmul_av_apply _ _ r d).trans (Finset.sum_congr rfl fun k _ => ?_)
  rw [shapeCast_1ab_ab_apply v4]
  refine congrArg (· * v4 (ix3 (0 : Fin 1) k d)) ?_
  exact vecSoftmax2_apply (scores v0 v2) reduces_S512x2048_S512 shapeCasts_S512_S512x1 broadcasts_S512x1_S512x2048
    (.inl rfl) rfl rfl r k

/-- The second kernel's stored block, with the attention-weighted values named. -/
theorem k1_pay1_eq (v0 : FVec Ideal S1x512x1024 .bf16) (v2 v4 : FVec Ideal S1x2048x1024 .bf16) (v21 : FVec Ideal S1024x1024 .bf16)
    (v24 : FVec Ideal S1x1024 .f32) :
    k1_pay1 (F := Ideal) v0 v2 v4 v21 v24
      = shapeCast S1x512x1024
          (addf (matmul dot_S512x1024_S1024x1024_S512x1024_1_0_0_1_n_n none (truncf .bf16 (ctxv v0 v2 v4) bitsLt_bf16_f32)
              (shapeCast S1024x1024 v21 shapeCasts_S1024x1024_S1024x1024) (constant (F := Ideal) S512x1024 .f32 0x00000000#32))
            (broadcastTo S512x1024 (shapeCast S1x1024 v24 shapeCasts_S1x1024_S1x1024) broadcasts_S1x1024_S512x1024))
          shapeCasts_S512x1024_S1x512x1024 := rfl

/-- The second kernel's stored block at (0, r, e). -/
theorem k1_pay1_apply (v0 : FVec Ideal S1x512x1024 .bf16) (v2 v4 : FVec Ideal S1x2048x1024 .bf16) (v21 : FVec Ideal S1024x1024 .bf16)
    (v24 : FVec Ideal S1x1024 .f32) (r : Fin 512) (e : Fin 1024) :
    k1_pay1 (F := Ideal) v0 v2 v4 v21 v24 (ix3 (0 : Fin 1) r e)
      = (∑ d : Fin 1024, (∑ k : Fin 2048,
            softmaxAt (fun k' : Fin 2048 =>
              (∑ j : Fin 1024, v0 (ix3 (0 : Fin 1) r j) * v2 (ix3 (0 : Fin 1) k' j)) * Ideal.ofBits .f32 0x3D000000#32) k
              * v4 (ix3 (0 : Fin 1) k d)) * v21 (ix2 d e))
        + v24 (ix2 (0 : Fin 1) e) := by
  rw [k1_pay1_eq, shapeCast_ab_1ab_apply, shapeCast_self v21, shapeCast_self v24]
  refine congrArg₂ (· + ·) ((matmul_pr_apply _ _ r e).trans (Finset.sum_congr rfl fun d _ => ?_))
    (broadcastTo_1b_ab_apply v24 broadcasts_S1x1024_S512x1024 r e)
  refine congrArg (· * v21 (ix2 d e)) ((ctxv_apply v0 v2 v4 r d).trans (Finset.sum_congr rfl fun k _ => ?_))
  refine congrArg (· * v4 (ix3 (0 : Fin 1) k d)) ?_
  exact congrArg (fun f : Fin 2048 → EReal => softmaxAt f k) (funext fun k' => scores_apply v0 v2 r k')

end Cert.KernelIdeal.AttnBlock

end
-- ==== Proof.AttnArray.lean ====
/-
  The array the second region leaves: every entry (n, s, e) is the attention formula of the five arrays the region
  reads — queries Q, keys K, values Vv (each [4, 2048, 1024]), the transposed projection weights Wt [1024, 1024] and
  the projection bias Bp [1, 1024]:
    ∑ d, (∑ k, softmax_k (row (n, s) of (Q · Kᵀ) · 1/32) · Vv (n, k, d)) · Wt (d, e) + Bp (0, e).
  Grid point (n, q) of the 4 × 4 grid writes rows 512 q … 512 q + 511 of batch n; the 16 blocks tile the array.
-/
import proofs.«166768_j20882130993308_2_alg».proof.Proof.KernelIdealFrame
import proofs.«166768_j20882130993308_2_alg».proof.Proof.AttnBlock
import Idealize.ShloMosaic.Lib.Pipeline.Value

set_option maxRecDepth 16384

noncomputable section

open scoped BigOperators

namespace Cert.KernelIdeal.AttnArray

open Cert.KernelIdeal Cert.KernelIdeal.Gen Cert.KernelIdeal.Frame Cert.KernelIdeal.AttnBlock
open Idealize.ShloMosaic Idealize.ShloMosaic.TcCoe Idealize.ShloMosaic.ValueIdx Idealize.SL.Sem
open Idealize.ShloMosaic.LastAxisSoftmax
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-- Attention with the output projection as one function of the five arrays the second region reads. -/
def attnProj (a8 a9 a10 : S4x2048x1024.Idx → EReal) (a12 : S1024x1024.Idx → EReal) (a13 : S1x1024.Idx → EReal) :
    S4x2048x1024.Idx → EReal :=
  fun i => (∑ d : Fin 1024, (∑ k : Fin 2048,
      softmaxAt (fun k' : Fin 2048 =>
        (∑ j : Fin 1024, a8 (ix3 (i 0) (i 1) j) * a9 (ix3 (i 0) k' j)) * Ideal.ofBits .f32 0x3D000000#32) k
        * a10 (ix3 (i 0) k d)) * a12 (ix2 d (i 2)))
    + a13 (ix2 (0 : Fin 1) (i 2))

/-- A stored block is the matching block of the attention function, once each loaded block is known to be the
    matching part of its array. -/
theorem block_eq (v0 : FVec Ideal S1x512x1024 .bf16) (v2 v4 : FVec Ideal S1x2048x1024 .bf16)
    (v21 : FVec Ideal S1024x1024 .bf16) (v24 : FVec Ideal S1x1024 .f32)
    (a8 a9 a10 : S4x2048x1024.Idx → EReal) (a12 : S1024x1024.Idx → EReal) (a13 : S1x1024.Idx → EReal)
    (y : S1x512x1024.Idx) (i : S4x2048x1024.Idx)
    (h0 : ∀ j : Fin 1024, v0 (ix3 (0 : Fin 1) (y 1) j) = a8 (ix3 (i 0) (i 1) j))
    (h1 : ∀ (k : Fin 2048) (j : Fin 1024), v2 (ix3 (0 : Fin 1) k j) = a9 (ix3 (i 0) k j))
    (h2 : ∀ (k : Fin 2048) (d : Fin 1024), v4 (ix3 (0 : Fin 1) k d) = a10 (ix3 (i 0) k d))
    (h3 : ∀ d : Fin 1024, v21 (ix2 d (y 2)) = a12 (ix2 d (i 2)))
    (h4 : v24 (ix2 (0 : Fin 1) (y 2)) = a13 (ix2 (0 : Fin 1) (i 2))) :
    k1_pay1 (F := Ideal) v0 v2 v4 v21 v24 y = attnProj a8 a9 a10 a12 a13 i := by
  obtain ⟨u, r, e, rfl⟩ : ∃ (u : Fin 1) (r : Fin 512) (e : Fin 1024), y = ix3 u r e := ⟨y 0, y 1, y 2, eq_ix3 y⟩
  obtain rfl : u = 0 := Fin.ext (by omega)
  rw [k1_pay1_apply]
  unfold attnProj
  refine congrArg₂ (· + ·) (Finset.sum_congr rfl fun d _ => congrArg₂ (· * ·)
    (Finset.sum_congr rfl fun k _ => congrArg₂ (· * ·) ?_ (h2 k d)) (h3 d)) h4
  exact congrArg (fun f : Fin 2048 → EReal => softmaxAt f k) (funext fun k' =>
    congrArg (· * Ideal.ofBits .f32 0x3D000000#32) (Finset.sum_congr rfl fun j _ => congrArg₂ (· * ·) (h0 j) (h1 k' j)))

/-- The index maps over the grid: the query block moves with the output block; keys and values are the whole
    batch; the projection weights and bias are whole; 4 batches, 4 row blocks. -/
theorem idx_facts1 : ∀ t : Fin cfg1.N, win1_0.index t (0 : Fin 3) = win1_5.index t (0 : Fin 3)
    ∧ win1_0.index t (1 : Fin 3) = win1_5.index t (1 : Fin 3)
    ∧ win1_0.index t (2 : Fin 3) = 0
    ∧ win1_1.index t (0 : Fin 3) = win1_5.index t (0 : Fin 3)
    ∧ win1_1.index t (1 : Fin 3) = 0
    ∧ win1_1.index t (2 : Fin 3) = 0
    ∧ win1_2.index t (0 : Fin 3) = win1_5.index t (0 : Fin 3)
    ∧ win1_2.index t (1 : Fin 3) = 0
    ∧ win1_2.index t (2 : Fin 3) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 3) ≤ 3 ∧ win1_5.index t (1 : Fin 3) ≤ 3 ∧ win1_5.index t (2 : Fin 3) = 0 :=
  (by decide +kernel : ∀ t : Fin grid1.N, _)

/-- Every (batch, row block) pair is some grid point's. -/
theorem idx_onto1 : ∀ (q0 : Fin 4) (q1 : Fin 4), ∃ t : Fin cfg1.N, win1_5.index t = ![q0.val, q1.val, 0] :=
  (by decide +kernel : ∀ (q0 : Fin 4) (q1 : Fin 4), ∃ t : Fin grid1.N, win1_5.index t = ![q0.val, q1.val, 0])

variable (V : (c : Dev nD) → (b : Ref sig .tc) → Buf (Elt Ideal) ((c : Thread nD τ).loc b))

/-- What grid point `t` writes back is block `t` of the attention function of the arrays as the region finds them. -/
theorem flushed1_eq (c : Dev nD) (t : Fin cfg1.N) :
    (dat1 V c).flushed 5 t
      = ((cfg1.win 5).blk t).view.read (Elt Ideal)
          (attnProj (V c main_v8) (V c main_v9) (V c main_v10) (V c main_v12) (V c main_v13)) := by
  show (cfg1.win 5).cut (grid1.coords t) ((dat1 V c).after 5 t) = _
  rw [after1_5]
  unfold out1_5
  rw [View.canon_unit_zero hz3]
  simp only [View.ld_unit_zero (S := S1x512x1024) hz3, View.ld_unit_zero (S := S1x2048x1024) hz3,
    View.ld_unit_zero (S := S1024x1024) hz2, View.ld_unit_zero (S := S1x1024) hz2]
  obtain ⟨e0, e1, e2, e3, e4, e5, e6, e7, e8, e9, e10, e11, e12, e13, e14, e15⟩ := idx_facts1 t
  funext y
  show k1_pay1 (F := Ideal) (iblk1 V c 0 t) (iblk1 V c 1 t) (iblk1 V c 2 t) (iblk1 V c 3 t) (iblk1 V c 4 t) y
    = attnProj (V c main_v8) (V c main_v9) (V c main_v10) (V c main_v12) (V c main_v13) (((cfg1.win 5).blk t).view.emb y)
  have hy0 : (y 0).val < 1 := (y 0).isLt
  refine block_eq _ _ _ _ _ _ _ _ _ _ y _ (fun j => ?_) (fun k j => ?_) (fun k d => ?_) (fun d => ?_) ?_
  · unfold iblk1
    rw [View.read_apply]
    refine congrArg (V c main_v8) (funext fun a => Fin.ext ?_)
    match a with
    | ⟨0, _⟩ => show win1_0.index t (0 : Fin 3) * 1 + 1 * 0 = win1_5.index t (0 : Fin 3) * 1 + 1 * (y 0).val; omega
    | ⟨1, _⟩ => show win1_0.index t (1 : Fin 3) * 512 + 1 * (y 1).val = win1_5.index t (1 : Fin 3) * 512 + 1 * (y 1).val; omega
    | ⟨2, _⟩ => show win1_0.index t (2 : Fin 3) * 1024 + 1 * j.val = j.val; omega
  · unfold iblk1
    rw [View.read_apply]
    refine congrArg (V c main_v9) (funext fun a => Fin.ext ?_)
    match a with
    | ⟨0, _⟩ => show win1_1.index t (0 : Fin 3) * 1 + 1 * 0 = win1_5.index t (0 : Fin 3) * 1 + 1 * (y 0).val; omega
    | ⟨1, _⟩ => show win1_1.index t (1 : Fin 3) * 2048 + 1 * k.val = k.val; omega
    | ⟨2, _⟩ => show win1_1.index t (2 : Fin 3) * 1024 + 1 * j.val = j.val; omega
  · unfold iblk1
    rw [View.read_apply]
    refine congrArg (V c main_v10) (funext fun a => Fin.ext ?_)
    match a with
    | ⟨0, _⟩ => show win1_2.index t (0 : Fin 3) * 1 + 1 * 0 = win1_5.index t (0 : Fin 3) * 1 + 1 * (y 0).val; omega
    | ⟨1, _⟩ => show win1_2.index t (1 : Fin 3) * 2048 + 1 * k.val = k.val; omega
    | ⟨2, _⟩ => show win1_2.index t (2 : Fin 3) * 1024 + 1 * d.val = d.val; omega
  · unfold iblk1
    rw [View.read_apply]
    refine congrArg (V c main_v12) (funext fun a => Fin.ext ?_)
    match a with
    | ⟨0, _⟩ => show win1_3.index t (0 : Fin 2) * 1024 + 1 * d.val = d.val; omega
    | ⟨1, _⟩ => show win1_3.index t (1 : Fin 2) * 1024 + 1 * (y 2).val = win1_5.index t (2 : Fin 3) * 1024 + 1 * (y 2).val; omega
  · unfold iblk1
    rw [View.read_apply]
    refine congrArg (V c main_v13) (funext fun a => Fin.ext ?_)
    match a with
    | ⟨0, _⟩ => show win1_4.index t (0 : Fin 2) * 1 + 1 * 0 = 0; omega
    | ⟨1, _⟩ => show win1_4.index t (1 : Fin 2) * 1024 + 1 * (y 2).val = win1_5.index t (2 : Fin 3) * 1024 + 1 * (y 2).val; omega

/-- An index of the array is in point `t`'s block iff each coordinate is in the block's range on its axis. -/
theorem mem_blk1 (t : Fin cfg1.N) (i : S4x2048x1024.Idx) :
    i ∈ ((cfg1.win 5).blk t).view.set ↔ ∀ a : Fin 3, win1_5.index t a * S1x512x1024.size a ≤ (i a).val
      ∧ (i a).val < win1_5.index t a * S1x512x1024.size a + S1x512x1024.size a := by
  show i ∈ ((View.whole main_v14).slice (win1_5.rect t)).set ↔ _
  rw [View.set_slice_whole, Rect.mem_set_unit]
  exact Iff.rfl

/-- The 16 blocks cover the array: entry (n, s, e) lies in the block of the point with batch n and row block s / 512. -/
theorem cover1 (i : S4x2048x1024.Idx) :
    ∃ t : Fin cfg1.N, (cfg1.win 5).flush t = true ∧ i ∈ ((cfg1.win 5).blk t).view.set := by
  have hi0 : (i 0).val < 4 := (i 0).isLt
  have hi1 : (i 1).val < 2048 := (i 1).isLt
  have hi2 : (i 2).val < 1024 := (i 2).isLt
  obtain ⟨t, ht⟩ := idx_onto1 ⟨(i 0).val, by omega⟩ ⟨(i 1).val / 512, by omega⟩
  have q0 : win1_5.index t (0 : Fin 3) = (i 0).val := congrFun ht 0
  have q1 : win1_5.index t (1 : Fin 3) = (i 1).val / 512 := congrFun ht 1
  have q2 : win1_5.index t (2 : Fin 3) = 0 := congrFun ht 2
  refine ⟨t, flush1_5 t, ?_⟩
  rw [mem_blk1]
  intro a
  match a with
  | ⟨0, _⟩ =>
    show win1_5.index t (0 : Fin 3) * 1 ≤ (i 0).val ∧ (i 0).val < win1_5.index t (0 : Fin 3) * 1 + 1
    omega
  | ⟨1, _⟩ =>
    show win1_5.index t (1 : Fin 3) * 512 ≤ (i 1).val ∧ (i 1).val < win1_5.index t (1 : Fin 3) * 512 + 512
    omega
  | ⟨2, _⟩ =>
    show win1_5.index t (2 : Fin 3) * 1024 ≤ (i 2).val ∧ (i 2).val < win1_5.index t (2 : Fin 3) * 1024 + 1024
    omega

/-- The output array after the second region: the attention function of the arrays as the region finds them. -/
theorem final1 (c : Dev nD) :
    (dat1 V c).arrAt 5 cfg1.N
      = attnProj (V c main_v8) (V c main_v9) (V c main_v10) (V c main_v12) (V c main_v13) :=
  (dat1 V c).arrAt_eq_of_cover 5 (attnProj (V c main_v8) (V c main_v9) (V c main_v10) (V c main_v12) (V c main_v13))
    (fun t _ => flushed1_eq V c t) cover1

end Cert.KernelIdeal.AttnArray

end
-- ==== Proof.LibConcat3.lean ====
import Idealize.ShloMosaic.Lib.ValueIdx
import Idealize.ShloMosaic.Lib.Pipeline.Value

/-!
# Three equal pieces concatenated along the leading axis, read at an index

A concatenation of three arrays of one shape along axis 0 holds, at leading coordinate `k * n + e` (`n` the pieces'
leading extent, `k < 3`, `e < n`), piece `k` at leading coordinate `e`, the other coordinates unchanged. Stated for
matrices (rank 2) and for vectors (rank 1), one lemma per piece (pieces numbered 0, 1, 2), each from the general
statement that a concatenation read at an index is the piece whose span holds the axis coordinate.
-/

namespace Idealize.ShloMosaic.ValueIdx

open Idealize.ShloMosaic

variable {α : Type}

/-! ## Matrices stacked along the rows -/

/-- Three `n × p` matrices stacked along the rows: a row `r = e` of the first `n` reads matrix 0 at row `e`. -/
theorem concatenate3_rows_apply_0 {n N p : Nat} (x0 x1 x2 : (⟨2, ![n, p]⟩ : Shape).Idx → α)
    (h : Shape.Concatenates [(⟨2, ![n, p]⟩ : Shape), ⟨2, ![n, p]⟩, ⟨2, ![n, p]⟩] ⟨2, ![N, p]⟩ (0 : Fin 2))
    (r : Fin N) (j : Fin p) (e : Fin n) (hr : r.val = e.val) :
    concatenate ⟨2, ![N, p]⟩ (0 : Fin 2) [⟨⟨2, ![n, p]⟩, x0⟩, ⟨⟨2, ![n, p]⟩, x1⟩, ⟨⟨2, ![n, p]⟩, x2⟩] h (ix2 r j) = x0 (ix2 e j) :=
  concatenate_apply_piece (t := ⟨2, ![N, p]⟩) (0 : Fin 2) [⟨⟨2, ![n, p]⟩, x0⟩, ⟨⟨2, ![n, p]⟩, x1⟩, ⟨⟨2, ![n, p]⟩, x2⟩] h (ix2 r j) 0
    (by show 0 < 3; omega) ⟨2, ![n, p]⟩ x0 rfl rfl 0 (by simp) (ix2 e j)
    (fun b hb => match b with
      | ⟨0, _⟩ => absurd rfl hb
      | ⟨1, _⟩ => rfl)
    (by show 0 + e.val = r.val; omega)

/-- Three `n × p` matrices stacked along the rows: a row `r = n + e` of the second `n` reads matrix 1 at row `e`. -/
theorem concatenate3_rows_apply_1 {n N p : Nat} (x0 x1 x2 : (⟨2, ![n, p]⟩ : Shape).Idx → α)
    (h : Shape.Concatenates [(⟨2, ![n, p]⟩ : Shape), ⟨2, ![n, p]⟩, ⟨2, ![n, p]⟩] ⟨2, ![N, p]⟩ (0 : Fin 2))
    (r : Fin N) (j : Fin p) (e : Fin n) (hr : r.val = n + e.val) :
    concatenate ⟨2, ![N, p]⟩ (0 : Fin 2) [⟨⟨2, ![n, p]⟩, x0⟩, ⟨⟨2, ![n, p]⟩, x1⟩, ⟨⟨2, ![n, p]⟩, x2⟩] h (ix2 r j) = x1 (ix2 e j) :=
  concatenate_apply_piece (t := ⟨2, ![N, p]⟩) (0 : Fin 2) [⟨⟨2, ![n, p]⟩, x0⟩, ⟨⟨2, ![n, p]⟩, x1⟩, ⟨⟨2, ![n, p]⟩, x2⟩] h (ix2 r j) 1
    (by show 1 < 3; omega) ⟨2, ![n, p]⟩ x1 rfl rfl n (by simp) (ix2 e j)
    (fun b hb => match b with
      | ⟨0, _⟩ => absurd rfl hb
      | ⟨1, _⟩ => rfl)
    (by show n + e.val = r.val; omega)

/-- Three `n × p` matrices stacked along the rows: a row `r = n + n + e` of the last `n` reads matrix 2 at row `e`. -/
theorem concatenate3_rows_apply_2 {n N p : Nat} (x0 x1 x2 : (⟨2, ![n, p]⟩ : Shape).Idx → α)
    (h : Shape.Concatenates [(⟨2, ![n, p]⟩ : Shape), ⟨2, ![n, p]⟩, ⟨2, ![n, p]⟩] ⟨2, ![N, p]⟩ (0 : Fin 2))
    (r : Fin N) (j : Fin p) (e : Fin n) (hr : r.val = n + n + e.val) :
    concatenate ⟨2, ![N, p]⟩ (0 : Fin 2) [⟨⟨2, ![n, p]⟩, x0⟩, ⟨⟨2, ![n, p]⟩, x1⟩, ⟨⟨2, ![n, p]⟩, x2⟩] h (ix2 r j) = x2 (ix2 e j) :=
  concatenate_apply_piece (t := ⟨2, ![N, p]⟩) (0 : Fin 2) [⟨⟨2, ![n, p]⟩, x0⟩, ⟨⟨2, ![n, p]⟩, x1⟩, ⟨⟨2, ![n, p]⟩, x2⟩] h (ix2 r j) 2
    (by show 2 < 3; omega) ⟨2, ![n, p]⟩ x2 rfl rfl (n + n) (by simp) (ix2 e j)
    (fun b hb => match b with
      | ⟨0, _⟩ => absurd rfl hb
      | ⟨1, _⟩ => rfl)
    (by show (n + n) + e.val = r.val; omega)

/-! ## Vectors laid end to end -/

/-- Three vectors of length `n` laid end to end: a position `r = e` of the first `n` reads vector 0 at `e`. -/
theorem concatenate3_vec_apply_0 {n N : Nat} (x0 x1 x2 : (⟨1, ![n]⟩ : Shape).Idx → α)
    (h : Shape.Concatenates [(⟨1, ![n]⟩ : Shape), ⟨1, ![n]⟩, ⟨1, ![n]⟩] ⟨1, ![N]⟩ (0 : Fin 1))
    (r : Fin N) (e : Fin n) (hr : r.val = e.val) :
    concatenate ⟨1, ![N]⟩ (0 : Fin 1) [⟨⟨1, ![n]⟩, x0⟩, ⟨⟨1, ![n]⟩, x1⟩, ⟨⟨1, ![n]⟩, x2⟩] h (ix1 r) = x0 (ix1 e) :=
  concatenate_apply_piece (t := ⟨1, ![N]⟩) (0 : Fin 1) [⟨⟨1, ![n]⟩, x0⟩, ⟨⟨1, ![n]⟩, x1⟩, ⟨⟨1, ![n]⟩, x2⟩] h (ix1 r) 0
    (by show 0 < 3; omega) ⟨1, ![n]⟩ x0 rfl rfl 0 (by simp) (ix1 e)
    (fun b hb => match b with
      | ⟨0, _⟩ => absurd rfl hb)
    (by show 0 + e.val = r.val; omega)

/-- Three vectors of length `n` laid end to end: a position `r = n + e` of the second `n` reads vector 1 at `e`. -/
theorem concatenate3_vec_apply_1 {n N : Nat} (x0 x1 x2 : (⟨1, ![n]⟩ : Shape).Idx → α)
    (h : Shape.Concatenates [(⟨1, ![n]⟩ : Shape), ⟨1, ![n]⟩, ⟨1, ![n]⟩] ⟨1, ![N]⟩ (0 : Fin 1))
    (r : Fin N) (e : Fin n) (hr : r.val = n + e.val) :
    concatenate ⟨1, ![N]⟩ (0 : Fin 1) [⟨⟨1, ![n]⟩, x0⟩, ⟨⟨1, ![n]⟩, x1⟩, ⟨⟨1, ![n]⟩, x2⟩] h (ix1 r) = x1 (ix1 e) :=
  concatenate_apply_piece (t := ⟨1, ![N]⟩) (0 : Fin 1) [⟨⟨1, ![n]⟩, x0⟩, ⟨⟨1, ![n]⟩, x1⟩, ⟨⟨1, ![n]⟩, x2⟩] h (ix1 r) 1
    (by show 1 < 3; omega) ⟨1, ![n]⟩ x1 rfl rfl n (by simp) (ix1 e)
    (fun b hb => match b with
      | ⟨0, _⟩ => absurd rfl hb)
    (by show n + e.val = r.val; omega)

/-- Three vectors of length `n` laid end to end: a position `r = n + n + e` of the last `n` reads vector 2 at `e`. -/
theorem concatenate3_vec_apply_2 {n N : Nat} (x0 x1 x2 : (⟨1, ![n]⟩ : Shape).Idx → α)
    (h : Shape.Concatenates [(⟨1, ![n]⟩ : Shape), ⟨1, ![n]⟩, ⟨1, ![n]⟩] ⟨1, ![N]⟩ (0 : Fin 1))
    (r : Fin N) (e : Fin n) (hr : r.val = n + n + e.val) :
    concatenate ⟨1, ![N]⟩ (0 : Fin 1) [⟨⟨1, ![n]⟩, x0⟩, ⟨⟨1, ![n]⟩, x1⟩, ⟨⟨1, ![n]⟩, x2⟩] h (ix1 r) = x2 (ix1 e) :=
  concatenate_apply_piece (t := ⟨1, ![N]⟩) (0 : Fin 1) [⟨⟨1, ![n]⟩, x0⟩, ⟨⟨1, ![n]⟩, x1⟩, ⟨⟨1, ![n]⟩, x2⟩] h (ix1 r) 2
    (by show 2 < 3; omega) ⟨1, ![n]⟩ x2 rfl rfl (n + n) (by simp) (ix1 e)
    (fun b hb => match b with
      | ⟨0, _⟩ => absurd rfl hb)
    (by show (n + n) + e.val = r.val; omega)

end Idealize.ShloMosaic.ValueIdx
-- ==== Proof.HostReads.lean ====
/-
  What the two stretches of host operations leave, read at an index in terms of the launch memory.
  Before the first region: the activations reshaped to [8192, 1024]; the three weight matrices stacked along the rows,
  then transposed to [1024, 3072]; the three biases stacked, as a row [1, 3072].
  Before the second region: the first region's output reshaped to [4, 2048, 3072] and cut into its three column bands
  [4, 2048, 1024]; the output weights transposed; the output bias as a row [1, 1024].
  A change of float format changes no value on the extended reals.
-/
import proofs.«166768_j20882130993308_2_alg».proof.Proof.KernelIdealFrame
import proofs.«166768_j20882130993308_2_alg».proof.Proof.LibConcat3
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.HostReads

open Cert.KernelIdeal Cert.KernelIdeal.Gen Cert.KernelIdeal.Frame Idealize.ShloMosaic Idealize.ShloMosaic.ValueIdx
open Idealize.ShloMosaic.TcCoe
open Idealize.ShloMosaic.StableHlo (after_cons after_nil)

variable (m : (ℓ : Loc nD τ sig) → Buf (Elt Ideal) ℓ) (ρ : Dev nD → PrngReg) (c : Dev nD)

/-! # What the two stretches of host operations leave, read at an index

`V1` is the core's buffer contents after the first stretch (the first kernel call's entry), `V3` after the second
(the second kernel call's entry). Each buffer a stretch writes is first written as the operations' term over the
contents before the stretch, then read at an index: a reshape keeps the row-major position, a transpose swaps the two
coordinates, a concatenation reads the piece whose span holds the coordinate, a slice shifts the coordinate by its
offset, and the change to the narrower format changes no value at the ideal instance. -/

/-! ## The first stretch: each buffer as a term over the launch contents -/

/-- After the first stretch, `main_v5` holds argument 0 reshaped from `[4, 2048, 1024]` to `[8192, 1024]`. -/
theorem v5_term : (V1 m ρ c main_v5 : S8192x1024.Idx → EReal)
    = shapeCast S8192x1024 (m ((c : Thread nD τ).loc main_arg0) : S4x2048x1024.Idx → EReal) shapeCasts_S4x2048x1024_S8192x1024 := by
  show StableHlo.after hostOps0 (W0 m ρ c) (Proc.devRef .tc main_v5) = _
  after_results
  rfl

/-- After the first stretch, `main_v3` holds arguments 1, 3 and 5 (the three weight matrices) stacked along the rows,
    transposed, in the narrower format. -/
theorem v3_term : (V1 m ρ c main_v3 : S1024x3072.Idx → EReal)
    = (truncf (F := Ideal) .bf16 (transpose S1024x3072 [1, 0]
        (concatenate S3072x1024 0 [⟨S1024x1024, (m ((c : Thread nD τ).loc main_arg1) : S1024x1024.Idx → EReal)⟩, ⟨S1024x1024, (m ((c : Thread nD τ).loc main_arg3) : S1024x1024.Idx → EReal)⟩, ⟨S1024x1024, (m ((c : Thread nD τ).loc main_arg5) : S1024x1024.Idx → EReal)⟩]
          concatenates_S1024x1024_S1024x1024_S1024x1024_S3072x1024_d0)
        transposes_S3072x1024_S1024x3072_1_0) bitsLt_bf16_f32 : S1024x3072.Idx → EReal) := by
  show StableHlo.after hostOps0 (W0 m ρ c) (Proc.devRef .tc main_v3) = _
  after_results
  rfl

/-- After the first stretch, `main_v1` holds arguments 2, 4 and 6 (the three bias vectors) laid end to end. -/
theorem v1_term : (V1 m ρ c main_v1 : S3072.Idx → EReal)
    = concatenate S3072 0 [⟨S1024, (m ((c : Thread nD τ).loc main_arg2) : S1024.Idx → EReal)⟩, ⟨S1024, (m ((c : Thread nD τ).loc main_arg4) : S1024.Idx → EReal)⟩, ⟨S1024, (m ((c : Thread nD τ).loc main_arg6) : S1024.Idx → EReal)⟩]
        concatenates_S1024_S1024_S1024_S3072_d0 := by
  show StableHlo.after hostOps0 (W0 m ρ c) (Proc.devRef .tc main_v1) = _
  after_results
  rfl

/-- After the first stretch, `main_v4` holds `main_v1` reshaped from `[3072]` to `[1, 3072]`. -/
theorem v4_term : (V1 m ρ c main_v4 : S1x3072.Idx → EReal)
    = shapeCast S1x3072 (V1 m ρ c main_v1 : S3072.Idx → EReal) shapeCasts_S3072_S1x3072 := by
  show StableHlo.after hostOps0 (W0 m ρ c) (Proc.devRef .tc main_v4)
    = shapeCast S1x3072 (StableHlo.after hostOps0 (W0 m ρ c) (Proc.devRef .tc main_v1)) _
  after_results
  rfl

/-! ## The first stretch, read at an index -/

/-- `main_v5` at row `n * 2048 + s`, column `j` is argument 0 at `(n, s, j)`. -/
theorem v5_apply (n : Fin 4) (s : Fin 2048) (j : Fin 1024) :
    (V1 m ρ c main_v5 : S8192x1024.Idx → EReal) (ix2 (⟨n.val * 2048 + s.val, by omega⟩ : Fin 8192) j)
      = (m ((c : Thread nD τ).loc main_arg0) : S4x2048x1024.Idx → EReal) (ix3 n s j) := by
  rw [v5_term]
  refine shapeCast_apply (s := S4x2048x1024) (t := S8192x1024) _ _ _ _ ?_
  rw [Shape.rowMajor_val_three, Shape.rowMajor_val_two]
  rfl

/-- `main_v3` at row `j`, column `e` (the first 1024 columns) is argument 1 at `(e, j)`. -/
theorem v3_apply_q (j e : Fin 1024) :
    (V1 m ρ c main_v3 : S1024x3072.Idx → EReal) (ix2 j (⟨e.val, by omega⟩ : Fin 3072)) = (m ((c : Thread nD τ).loc main_arg1) : S1024x1024.Idx → EReal) (ix2 e j) := by
  rw [v3_term, truncf_apply, transpose_ix2_apply]
  exact concatenate3_rows_apply_0 _ _ _ _ _ _ e rfl

/-- `main_v3` at row `j`, column `1024 + e` (the second 1024 columns) is argument 3 at `(e, j)`. -/
theorem v3_apply_k (j e : Fin 1024) :
    (V1 m ρ c main_v3 : S1024x3072.Idx → EReal) (ix2 j (⟨1024 + e.val, by omega⟩ : Fin 3072)) = (m ((c : Thread nD τ).loc main_arg3) : S1024x1024.Idx → EReal) (ix2 e j) := by
  rw [v3_term, truncf_apply, transpose_ix2_apply]
  exact concatenate3_rows_apply_1 _ _ _ _ _ _ e rfl

/-- `main_v3` at row `j`, column `2048 + e` (the last 1024 columns) is argument 5 at `(e, j)`. -/
theorem v3_apply_v (j e : Fin 1024) :
    (V1 m ρ c main_v3 : S1024x3072.Idx → EReal) (ix2 j (⟨2048 + e.val, by omega⟩ : Fin 3072)) = (m ((c : Thread nD τ).loc main_arg5) : S1024x1024.Idx → EReal) (ix2 e j) := by
  rw [v3_term, truncf_apply, transpose_ix2_apply]
  exact concatenate3_rows_apply_2 _ _ _ _ _ _ e rfl

/-- `main_v4` at `(0, e)` (the first 1024 columns) is argument 2 at `e`. -/
theorem v4_apply_q (e : Fin 1024) :
    (V1 m ρ c main_v4 : S1x3072.Idx → EReal) (ix2 (0 : Fin 1) (⟨e.val, by omega⟩ : Fin 3072)) = (m ((c : Thread nD τ).loc main_arg2) : S1024.Idx → EReal) (ix1 e) := by
  rw [v4_term, shapeCast_a_1a_apply, v1_term]
  exact concatenate3_vec_apply_0 _ _ _ _ _ e rfl

/-- `main_v4` at `(0, 1024 + e)` (the second 1024 columns) is argument 4 at `e`. -/
theorem v4_apply_k (e : Fin 1024) :
    (V1 m ρ c main_v4 : S1x3072.Idx → EReal) (ix2 (0 : Fin 1) (⟨1024 + e.val, by omega⟩ : Fin 3072)) = (m ((c : Thread nD τ).loc main_arg4) : S1024.Idx → EReal) (ix1 e) := by
  rw [v4_term, shapeCast_a_1a_apply, v1_term]
  exact concatenate3_vec_apply_1 _ _ _ _ _ e rfl

/-- `main_v4` at `(0, 2048 + e)` (the last 1024 columns) is argument 6 at `e`. -/
theorem v4_apply_v (e : Fin 1024) :
    (V1 m ρ c main_v4 : S1x3072.Idx → EReal) (ix2 (0 : Fin 1) (⟨2048 + e.val, by omega⟩ : Fin 3072)) = (m ((c : Thread nD τ).loc main_arg6) : S1024.Idx → EReal) (ix1 e) := by
  rw [v4_term, shapeCast_a_1a_apply, v1_term]
  exact concatenate3_vec_apply_2 _ _ _ _ _ e rfl

/-! ## The second stretch: the three slices of the first kernel call's result -/

/-- After the second stretch, `main_v8` holds the first kernel call's result reshaped from `[8192, 3072]` to
    `[4, 2048, 3072]` and cut along the last axis from column 0. -/
theorem v8_term : (V3 m ρ c main_v8 : S4x2048x1024.Idx → EReal)
    = extractStridedSlice S4x2048x1024 ![0, 0, 0]
        (shapeCast S4x2048x3072 (V2 m ρ c main_v6 : S8192x3072.Idx → EReal) shapeCasts_S8192x3072_S4x2048x3072)
        slices_S4x2048x3072_S4x2048x1024_0_0_0 := by
  show StableHlo.after hostOps1 (W2 m ρ c) (Proc.devRef .tc main_v8) = _
  after_results
  rfl

/-- `main_v8` at `(n, s, d)` is the first kernel call's result at row `n * 2048 + s`, column `d`. -/
theorem v8_apply (n : Fin 4) (s : Fin 2048) (d : Fin 1024) :
    (V3 m ρ c main_v8 : S4x2048x1024.Idx → EReal) (ix3 n s d)
      = (V2 m ρ c main_v6 : S8192x3072.Idx → EReal) (ix2 (⟨n.val * 2048 + s.val, by omega⟩ : Fin 8192) (⟨d.val, by omega⟩ : Fin 3072)) := by
  rw [v8_term]
  rw [extractStridedSlice_apply (s := S4x2048x3072) (t := S4x2048x1024) _ _ _ (ix3 n s d) (ix3 n s (⟨d.val, by omega⟩ : Fin 3072))
    (fun a => match a with
      | ⟨0, _⟩ => (Nat.zero_add _).symm
      | ⟨1, _⟩ => (Nat.zero_add _).symm
      | ⟨2, _⟩ => (Nat.zero_add _).symm)]
  refine shapeCast_apply (s := S8192x3072) (t := S4x2048x3072) _ _ _ _ ?_
  rw [Shape.rowMajor_val_three, Shape.rowMajor_val_two]
  rfl

/-- After the second stretch, `main_v9` holds the first kernel call's result reshaped from `[8192, 3072]` to
    `[4, 2048, 3072]` and cut along the last axis from column 1024. -/
theorem v9_term : (V3 m ρ c main_v9 : S4x2048x1024.Idx → EReal)
    = extractStridedSlice S4x2048x1024 ![0, 0, 1024]
        (shapeCast S4x2048x3072 (V2 m ρ c main_v6 : S8192x3072.Idx → EReal) shapeCasts_S8192x3072_S4x2048x3072)
        slices_S4x2048x3072_S4x2048x1024_0_0_1024 := by
  show StableHlo.after hostOps1 (W2 m ρ c) (Proc.devRef .tc main_v9) = _
  after_results
  rfl

/-- `main_v9` at `(n, s, d)` is the first kernel call's result at row `n * 2048 + s`, column `1024 + d`. -/
theorem v9_apply (n : Fin 4) (s : Fin 2048) (d : Fin 1024) :
    (V3 m ρ c main_v9 : S4x2048x1024.Idx → EReal) (ix3 n s d)
      = (V2 m ρ c main_v6 : S8192x3072.Idx → EReal) (ix2 (⟨n.val * 2048 + s.val, by omega⟩ : Fin 8192) (⟨1024 + d.val, by omega⟩ : Fin 3072)) := by
  rw [v9_term]
  rw [extractStridedSlice_apply (s := S4x2048x3072) (t := S4x2048x1024) _ _ _ (ix3 n s d) (ix3 n s (⟨1024 + d.val, by omega⟩ : Fin 3072))
    (fun a => match a with
      | ⟨0, _⟩ => (Nat.zero_add _).symm
      | ⟨1, _⟩ => (Nat.zero_add _).symm
      | ⟨2, _⟩ => rfl)]
  refine shapeCast_apply (s := S8192x3072) (t := S4x2048x3072) _ _ _ _ ?_
  rw [Shape.rowMajor_val_three, Shape.rowMajor_val_two]
  rfl

/-- After the second stretch, `main_v10` holds the first kernel call's result reshaped from `[8192, 3072]` to
    `[4, 2048, 3072]` and cut along the last axis from column 2048. -/
theorem v10_term : (V3 m ρ c main_v10 : S4x2048x1024.Idx → EReal)
    = extractStridedSlice S4x2048x1024 ![0, 0, 2048]
        (shapeCast S4x2048x3072 (V2 m ρ c main_v6 : S8192x3072.Idx → EReal) shapeCasts_S8192x3072_S4x2048x3072)
        slices_S4x2048x3072_S4x2048x1024_0_0_2048 := by
  show StableHlo.after hostOps1 (W2 m ρ c) (Proc.devRef .tc main_v10) = _
  after_results
  rfl

/-- `main_v10` at `(n, s, d)` is the first kernel call's result at row `n * 2048 + s`, column `2048 + d`. -/
theorem v10_apply (n : Fin 4) (s : Fin 2048) (d : Fin 1024) :
    (V3 m ρ c main_v10 : S4x2048x1024.Idx → EReal) (ix3 n s d)
      = (V2 m ρ c main_v6 : S8192x3072.Idx → EReal) (ix2 (⟨n.val * 2048 + s.val, by omega⟩ : Fin 8192) (⟨2048 + d.val, by omega⟩ : Fin 3072)) := by
  rw [v10_term]
  rw [extractStridedSlice_apply (s := S4x2048x3072) (t := S4x2048x1024) _ _ _ (ix3 n s d) (ix3 n s (⟨2048 + d.val, by omega⟩ : Fin 3072))
    (fun a => match a with
      | ⟨0, _⟩ => (Nat.zero_add _).symm
      | ⟨1, _⟩ => (Nat.zero_add _).symm
      | ⟨2, _⟩ => rfl)]
  refine shapeCast_apply (s := S8192x3072) (t := S4x2048x3072) _ _ _ _ ?_
  rw [Shape.rowMajor_val_three, Shape.rowMajor_val_two]
  rfl

/-! ## The second stretch: the projection's weight and bias -/

/-- After the second stretch, `main_v12` holds argument 7 transposed, in the narrower format: no operation before it
    writes argument 7, and it is no window's array of the first kernel call. -/
theorem v12_term : (V3 m ρ c main_v12 : S1024x1024.Idx → EReal)
    = (truncf (F := Ideal) .bf16 (transpose S1024x1024 [1, 0] (m ((c : Thread nD τ).loc main_arg7) : S1024x1024.Idx → EReal) transposes_S1024x1024_S1024x1024_1_0)
        bitsLt_bf16_f32 : S1024x1024.Idx → EReal) := by
  show StableHlo.after hostOps1 (W2 m ρ c) (Proc.devRef .tc main_v12) = _
  after_results
  rw [W2_of_ne m ρ c main_arg7 (by decide), W1_of m ρ c main_arg7 (by decide)]

/-- `main_v12` at `(d, e)` is argument 7 at `(e, d)`. -/
theorem v12_apply (d e : Fin 1024) :
    (V3 m ρ c main_v12 : S1024x1024.Idx → EReal) (ix2 d e) = (m ((c : Thread nD τ).loc main_arg7) : S1024x1024.Idx → EReal) (ix2 e d) := by
  rw [v12_term, truncf_apply, transpose_ix2_apply]

/-- After the second stretch, `main_v13` holds argument 8 reshaped from `[1024]` to `[1, 1024]`: no operation before
    it writes argument 8, and it is no window's array of the first kernel call. -/
theorem v13_term : (V3 m ρ c main_v13 : S1x1024.Idx → EReal)
    = shapeCast S1x1024 (m ((c : Thread nD τ).loc main_arg8) : S1024.Idx → EReal) shapeCasts_S1024_S1x1024 := by
  show StableHlo.after hostOps1 (W2 m ρ c) (Proc.devRef .tc main_v13) = _
  after_results
  rw [W2_of_ne m ρ c main_arg8 (by decide), W1_of m ρ c main_arg8 (by decide)]
  rfl

/-- `main_v13` at `(0, e)` is argument 8 at `e`. -/
theorem v13_apply (e : Fin 1024) :
    (V3 m ρ c main_v13 : S1x1024.Idx → EReal) (ix2 (0 : Fin 1) e) = (m ((c : Thread nD τ).loc main_arg8) : S1024.Idx → EReal) (ix1 e) := by
  rw [v13_term, shapeCast_a_1a_apply]

end Cert.KernelIdeal.HostReads

end
-- ==== Proof.AttnSpec.lean ====
/-
  Single-head self-attention as one function of the argument arrays, on the extended reals.

  With x : [4, 2048, 1024], weights W : [1024, 1024] acting as y ↦ y · Wᵀ, biases b : [1024]:
    lin x W b (n, s, e)     = ∑ j, x (n, s, j) · W (e, j) + b e                  (a linear layer)
    score (n, s, k)         = (∑ d, q (n, s, d) · k (n, k, d)) · 1/32           (q, k, v the three linear layers of x)
    ctx (n, s, d)           = ∑ k, softmax_k (score (n, s, ·)) · v (n, k, d)
    out (n, s, e)           = ∑ d, ctx (n, s, d) · Wp (e, d) + bp e
  The softmax of a row subtracts the row maximum (folded from minus infinity) before exponentiating.
  The scale 1/32 is kept as the f32 word 0x3D000000, which both programs are compared at.
-/
import Idealize.ShloMosaic.PureOps.Ideal
import Idealize.ShloMosaic.Lib.ValueIdx
import proofs.«166768_j20882130993308_2_alg».proof.Proof.LibLastAxisSoftmax

noncomputable section

open scoped BigOperators

namespace Cert.Attn

open Idealize.ShloMosaic Idealize.ShloMosaic.ValueIdx Idealize.ShloMosaic.LastAxisSoftmax

/-- An activation array [4, 2048, 1024], a weight matrix [1024, 1024], a bias [1024], of extended reals. -/
abbrev Act : Type := (⟨3, ![4, 2048, 1024]⟩ : Shape).Idx → EReal
abbrev Mat : Type := (⟨2, ![1024, 1024]⟩ : Shape).Idx → EReal
abbrev Bias : Type := (⟨1, ![1024]⟩ : Shape).Idx → EReal

/-- The scale 1/√1024 = 1/32, as the extended real its f32 word denotes. -/
abbrev scale : EReal := Ideal.ofBits .f32 0x3D000000#32

/-- A linear layer: entry (n, s, e) of x · Wᵀ + b. -/
def lin (x : Act) (W : Mat) (b : Bias) (n : Fin 4) (s : Fin 2048) (e : Fin 1024) : EReal :=
  (∑ j : Fin 1024, x (ix3 n s j) * W (ix2 e j)) + b (ix1 e)

/-- The scaled score of query row s against key row k in batch n. -/
def score (x : Act) (Wq : Mat) (bq : Bias) (Wk : Mat) (bk : Bias) (n : Fin 4) (s k : Fin 2048) : EReal :=
  (∑ d : Fin 1024, lin x Wq bq n s d * lin x Wk bk n k d) * scale

/-- The attention-weighted values: entry (n, s, d). -/
def ctx (x : Act) (Wq : Mat) (bq : Bias) (Wk : Mat) (bk : Bias) (Wv : Mat) (bv : Bias)
    (n : Fin 4) (s : Fin 2048) (d : Fin 1024) : EReal :=
  ∑ k : Fin 2048, softmaxAt (fun k' : Fin 2048 => score x Wq bq Wk bk n s k') k * lin x Wv bv n k d

/-- The output projection of the attention-weighted values: entry (n, s, e). -/
def out (x : Act) (Wq : Mat) (bq : Bias) (Wk : Mat) (bk : Bias) (Wv : Mat) (bv : Bias) (Wp : Mat) (bp : Bias)
    (n : Fin 4) (s : Fin 2048) (e : Fin 1024) : EReal :=
  (∑ d : Fin 1024, ctx x Wq bq Wk bk Wv bv n s d * Wp (ix2 e d)) + bp (ix1 e)

/-- The whole result array. -/
def attention (x : Act) (Wq : Mat) (bq : Bias) (Wk : Mat) (bk : Bias) (Wv : Mat) (bv : Bias) (Wp : Mat) (bp : Bias) : Act :=
  fun i => out x Wq bq Wk bk Wv bv Wp bp (i 0) (i 1) (i 2)

theorem attention_apply (x : Act) (Wq : Mat) (bq : Bias) (Wk : Mat) (bk : Bias) (Wv : Mat) (bv : Bias) (Wp : Mat) (bp : Bias)
    (n : Fin 4) (s : Fin 2048) (e : Fin 1024) :
    attention x Wq bq Wk bk Wv bv Wp bp (ix3 n s e) = out x Wq bq Wk bk Wv bv Wp bp n s e := rfl

end Cert.Attn

end
-- ==== Proof.KernelValue.lean ====
/-
  The kernel program's result array as the attention function of the argument arrays, at the exact instance.
  The first region leaves the fused projection of the reshaped activations against the stacked, transposed weights;
  its three column bands, read back through the reshape and the slices, are the query, key and value projections
  of the arguments. The second region leaves the attention function of those three arrays, the transposed output
  weights and the output bias: entry by entry the specification.
-/
import proofs.«166768_j20882130993308_2_alg».proof.Proof.KernelIdealFrame
import proofs.«166768_j20882130993308_2_alg».proof.Proof.QkvArray
import proofs.«166768_j20882130993308_2_alg».proof.Proof.AttnArray
import proofs.«166768_j20882130993308_2_alg».proof.Proof.HostReads
import proofs.«166768_j20882130993308_2_alg».proof.Proof.AttnSpec

noncomputable section

open scoped BigOperators

namespace Cert.KernelIdeal.Value

open Cert.KernelIdeal Cert.KernelIdeal.Gen Cert.KernelIdeal.Frame Cert.KernelIdeal.QkvArray Cert.KernelIdeal.AttnArray
open Cert.KernelIdeal.HostReads Cert.Attn
open Idealize.ShloMosaic Idealize.ShloMosaic.TcCoe Idealize.ShloMosaic.ValueIdx Idealize.SL.Sem
open Idealize.ShloMosaic.LastAxisSoftmax

variable (m : (ℓ : Loc nD τ sig) → Buf (Elt Ideal) ℓ) (ρ : Dev nD → PrngReg)

section
variable (c : Dev nD)

/-- After the first region its output array holds the fused projection of the three arrays the host prepared. -/
theorem fused_eq :
    (V2 m ρ c main_v6 : S8192x3072.Idx → EReal)
      = qkv (V1 m ρ c main_v5) (V1 m ρ c main_v3) (V1 m ρ c main_v4) :=
  (W2_arr m ρ c 3).trans (final0 (V1 m ρ) c)

theorem proj_q (n : Fin 4) (s : Fin 2048) (d : Fin 1024) :
    (V2 m ρ c main_v6 : S8192x3072.Idx → EReal) (ix2 (⟨n.val * 2048 + s.val, by omega⟩ : Fin 8192) (⟨d.val, by omega⟩ : Fin 3072))
      = lin (m ((c : Thread nD τ).loc main_arg0) : S4x2048x1024.Idx → EReal) (m ((c : Thread nD τ).loc main_arg1) : S1024x1024.Idx → EReal) (m ((c : Thread nD τ).loc main_arg2) : S1024.Idx → EReal) n s d := by
  rw [fused_eq]
  unfold qkv lin
  exact congrArg₂ (· + ·) (Finset.sum_congr rfl fun j _ => congrArg₂ (· * ·) (v5_apply m ρ c n s j) (v3_apply_q m ρ c j d))
    (v4_apply_q m ρ c d)

theorem proj_k (n : Fin 4) (s : Fin 2048) (d : Fin 1024) :
    (V2 m ρ c main_v6 : S8192x3072.Idx → EReal) (ix2 (⟨n.val * 2048 + s.val, by omega⟩ : Fin 8192) (⟨1024 + d.val, by omega⟩ : Fin 3072))
      = lin (m ((c : Thread nD τ).loc main_arg0) : S4x2048x1024.Idx → EReal) (m ((c : Thread nD τ).loc main_arg3) : S1024x1024.Idx → EReal) (m ((c : Thread nD τ).loc main_arg4) : S1024.Idx → EReal) n s d := by
  rw [fused_eq]
  unfold qkv lin
  exact congrArg₂ (· + ·) (Finset.sum_congr rfl fun j _ => congrArg₂ (· * ·) (v5_apply m ρ c n s j) (v3_apply_k m ρ c j d))
    (v4_apply_k m ρ c d)

theorem proj_v (n : Fin 4) (s : Fin 2048) (d : Fin 1024) :
    (V2 m ρ c main_v6 : S8192x3072.Idx → EReal) (ix2 (⟨n.val * 2048 + s.val, by omega⟩ : Fin 8192) (⟨2048 + d.val, by omega⟩ : Fin 3072))
      = lin (m ((c : Thread nD τ).loc main_arg0) : S4x2048x1024.Idx → EReal) (m ((c : Thread nD τ).loc main_arg5) : S1024x1024.Idx → EReal) (m ((c : Thread nD τ).loc main_arg6) : S1024.Idx → EReal) n s d := by
  rw [fused_eq]
  unfold qkv lin
  exact congrArg₂ (· + ·) (Finset.sum_congr rfl fun j _ => congrArg₂ (· * ·) (v5_apply m ρ c n s j) (v3_apply_v m ρ c j d))
    (v4_apply_v m ρ c d)

/-- The three arrays the second region reads are the query, key and value projections of the arguments. -/
theorem query_eq (n : Fin 4) (s : Fin 2048) (d : Fin 1024) :
    (V3 m ρ c main_v8 : S4x2048x1024.Idx → EReal) (ix3 n s d) = lin (m ((c : Thread nD τ).loc main_arg0) : S4x2048x1024.Idx → EReal) (m ((c : Thread nD τ).loc main_arg1) : S1024x1024.Idx → EReal) (m ((c : Thread nD τ).loc main_arg2) : S1024.Idx → EReal) n s d :=
  (v8_apply m ρ c n s d).trans (proj_q m ρ c n s d)
theorem key_eq (n : Fin 4) (s : Fin 2048) (d : Fin 1024) :
    (V3 m ρ c main_v9 : S4x2048x1024.Idx → EReal) (ix3 n s d) = lin (m ((c : Thread nD τ).loc main_arg0) : S4x2048x1024.Idx → EReal) (m ((c : Thread nD τ).loc main_arg3) : S1024x1024.Idx → EReal) (m ((c : Thread nD τ).loc main_arg4) : S1024.Idx → EReal) n s d :=
  (v9_apply m ρ c n s d).trans (proj_k m ρ c n s d)
theorem value_eq (n : Fin 4) (s : Fin 2048) (d : Fin 1024) :
    (V3 m ρ c main_v10 : S4x2048x1024.Idx → EReal) (ix3 n s d) = lin (m ((c : Thread nD τ).loc main_arg0) : S4x2048x1024.Idx → EReal) (m ((c : Thread nD τ).loc main_arg5) : S1024x1024.Idx → EReal) (m ((c : Thread nD τ).loc main_arg6) : S1024.Idx → EReal) n s d :=
  (v10_apply m ρ c n s d).trans (proj_v m ρ c n s d)

/-- The program's result array after the second region is the attention function of the argument arrays. -/
theorem result_eq :
    (W4 m ρ c (Proc.devRef .tc main_v14) : S4x2048x1024.Idx → EReal)
      = attention (m ((c : Thread nD τ).loc main_arg0) : S4x2048x1024.Idx → EReal) (m ((c : Thread nD τ).loc main_arg1) : S1024x1024.Idx → EReal) (m ((c : Thread nD τ).loc main_arg2) : S1024.Idx → EReal) (m ((c : Thread nD τ).loc main_arg3) : S1024x1024.Idx → EReal) (m ((c : Thread nD τ).loc main_arg4) : S1024.Idx → EReal) (m ((c : Thread nD τ).loc main_arg5) : S1024x1024.Idx → EReal) (m ((c : Thread nD τ).loc main_arg6) : S1024.Idx → EReal) (m ((c : Thread nD τ).loc main_arg7) : S1024x1024.Idx → EReal) (m ((c : Thread nD τ).loc main_arg8) : S1024.Idx → EReal) := by
  have h : (W4 m ρ c (Proc.devRef .tc main_v14) : S4x2048x1024.Idx → EReal)
      = attnProj (V3 m ρ c main_v8) (V3 m ρ c main_v9) (V3 m ρ c main_v10) (V3 m ρ c main_v12) (V3 m ρ c main_v13) :=
    (W4_arr m ρ c 5).trans (final1 (V3 m ρ) c)
  rw [h]
  funext i
  obtain ⟨n, s, e, rfl⟩ : ∃ (n : Fin 4) (s : Fin 2048) (e : Fin 1024), i = ix3 n s e := ⟨i 0, i 1, i 2, eq_ix3 i⟩
  rw [attention_apply]
  unfold attnProj out ctx score
  refine congrArg₂ (· + ·) (Finset.sum_congr rfl fun d _ => congrArg₂ (· * ·)
    (Finset.sum_congr rfl fun k _ => congrArg₂ (· * ·) ?_ (value_eq m ρ c n k d)) (v12_apply m ρ c d e)) (v13_apply m ρ c e)
  exact congrArg (fun f : Fin 2048 → EReal => softmaxAt f k) (funext fun k' =>
    congrArg (· * scale) (Finset.sum_congr rfl fun j _ => congrArg₂ (· * ·) (query_eq m ρ c n s j) (key_eq m ρ c n k' j)))

end

/-- The kernel program's run, read: every weakly fair execution terminates with the result array at the attention
    function of the argument arrays, and the argument arrays unchanged. -/
theorem run : θ_run defs (onTc (τ := τ) (main (F := Ideal))) ⟨m, fun _ => 0, ρ⟩ fun r => ∀ c : Dev nD,
      r.2.mem ((c.tc : Thread nD τ).loc main_v14) = attention (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c =>
    ⟨(h c _ (mem_uc main_v14 (by decide))).trans (result_eq m ρ c),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c)⟩)
    (run_main m ρ)

end Cert.KernelIdeal.Value

end
-- ==== Proof.Consts.lean ====
/-
  The float constants of the two programs as extended reals, and the one identity between them:
  the reference's scale 1 / √1024 is the kernel's literal 1/32.
-/
import Idealize.ShloMosaic.PureOps.Ideal

noncomputable section

namespace Cert.Consts

open Idealize.ShloMosaic

/-- The word of `1024.0` denotes the real 1024. -/
theorem ofBits_1024 : Ideal.ofBits .f32 0x44800000#32 = ((1024 : ℝ) : EReal) := by
  simp [Ideal.ofBits, Ideal.ieee, -EReal.coe_mul]; norm_num

/-- The word of `1.0` denotes 1. -/
theorem ofBits_one : Ideal.ofBits .f32 0x3F800000#32 = 1 := by
  simp [Ideal.ofBits, Ideal.ieee, -EReal.coe_mul]; norm_num

/-- The word of `0.03125` denotes the real 1/32. -/
theorem ofBits_inv32 : Ideal.ofBits .f32 0x3D000000#32 = ((1 / 32 : ℝ) : EReal) := by
  simp [Ideal.ofBits, Ideal.ieee, -EReal.coe_mul]; norm_num

/-- √1024 = 32. -/
theorem sqrt_1024 : Real.sqrt 1024 = 32 := by
  rw [show (1024 : ℝ) = 32 ^ 2 by norm_num]
  exact Real.sqrt_sq (by norm_num)

/-- 1 / √1024, computed on the extended reals from the words of 1.0 and 1024.0, is the word of 0.03125. -/
theorem scale_eq :
    Ideal.div (Ideal.ofBits .f32 0x3F800000#32) (Ideal.sqrt (Ideal.ofBits .f32 0x44800000#32))
      = Ideal.ofBits .f32 0x3D000000#32 := by
  rw [ofBits_one, ofBits_1024, ofBits_inv32, Ideal.sqrt_coe, if_neg (by norm_num), sqrt_1024,
    Ideal.div_coe (by norm_num : (32 : ℝ) ≠ 0), one_mul]

end Cert.Consts

end
-- ==== Proof.Reference.lean ====
/-
  The reference program's result, read index by index at the exact instance: each entry of the result array is the
  attention formula of the argument arrays. The stages are read one operation at a time; the only facts used beyond
  unfolding are  1 / √1024 = 1/32,  max (−∞) (fold max (−∞) f) = fold max (−∞) f  and  0 + s = s.
-/
import proofs.«166768_j20882130993308_2_alg».proof.Proof.Gen.ReferenceIdeal.Read
import proofs.«166768_j20882130993308_2_alg».proof.Proof.AttnSpec
import proofs.«166768_j20882130993308_2_alg».proof.Proof.Consts
import Idealize.ShloMosaic.Lib.ValueIdx
import Idealize.ShloMosaic.PureOps.Ideal.Laws

noncomputable section

open scoped BigOperators

namespace Cert.ReferenceIdeal.Attn

open Cert.ReferenceIdeal Cert.ReferenceIdeal.Gen Cert.ReferenceIdeal.Read
open Idealize.ShloMosaic Idealize.ShloMosaic.ValueIdx Idealize.ShloMosaic.LastAxisSoftmax Cert.Attn

/-- The query projection at (n, s, e). -/
theorem q_apply (x0 : (⟨S4x2048x1024, .f32⟩ : BufTy).Contents (Elt Ideal)) (x1 : (⟨S1024x1024, .f32⟩ : BufTy).Contents (Elt Ideal)) (x2 : (⟨S1024, .f32⟩ : BufTy).Contents (Elt Ideal))
    (n : Fin 4) (s : Fin 2048) (e : Fin 1024) :
    val_main_v3 (F := Ideal) x0 x1 x2 (ix3 n s e) = lin x0 x1 x2 n s e := by
  rw [val_main_v3_apply, val_main_v0_apply, val_main_v2_apply, val_main_v1_apply]
  unfold lin
  refine congrArg₂ (· + ·) (Finset.sum_congr rfl fun k _ => ?_) ?_
  · exact congrArg₂ (· * ·) (congrArg x0 (funext fun a => Fin.ext (by match a with | ⟨0, _⟩ => rfl | ⟨1, _⟩ => rfl | ⟨2, _⟩ => rfl))) (congrArg x1 (funext fun a => Fin.ext (by match a with | ⟨0, _⟩ => rfl | ⟨1, _⟩ => rfl)))
  · exact congrArg x2 (funext fun a => Fin.ext (by match a with | ⟨0, _⟩ => rfl))

/-- The key projection at (n, s, e). -/
theorem k_apply (x0 : (⟨S4x2048x1024, .f32⟩ : BufTy).Contents (Elt Ideal)) (x3 : (⟨S1024x1024, .f32⟩ : BufTy).Contents (Elt Ideal)) (x4 : (⟨S1024, .f32⟩ : BufTy).Contents (Elt Ideal))
    (n : Fin 4) (s : Fin 2048) (e : Fin 1024) :
    val_main_v7 (F := Ideal) x0 x3 x4 (ix3 n s e) = lin x0 x3 x4 n s e := by
  rw [val_main_v7_apply, val_main_v4_apply, val_main_v6_apply, val_main_v5_apply]
  unfold lin
  refine congrArg₂ (· + ·) (Finset.sum_congr rfl fun k _ => ?_) ?_
  · exact congrArg₂ (· * ·) (congrArg x0 (funext fun a => Fin.ext (by match a with | ⟨0, _⟩ => rfl | ⟨1, _⟩ => rfl | ⟨2, _⟩ => rfl))) (congrArg x3 (funext fun a => Fin.ext (by match a with | ⟨0, _⟩ => rfl | ⟨1, _⟩ => rfl)))
  · exact congrArg x4 (funext fun a => Fin.ext (by match a with | ⟨0, _⟩ => rfl))

/-- The value projection at (n, s, e). -/
theorem v_apply (x0 : (⟨S4x2048x1024, .f32⟩ : BufTy).Contents (Elt Ideal)) (x5 : (⟨S1024x1024, .f32⟩ : BufTy).Contents (Elt Ideal)) (x6 : (⟨S1024, .f32⟩ : BufTy).Contents (Elt Ideal))
    (n : Fin 4) (s : Fin 2048) (e : Fin 1024) :
    val_main_v11 (F := Ideal) x0 x5 x6 (ix3 n s e) = lin x0 x5 x6 n s e := by
  rw [val_main_v11_apply, val_main_v8_apply, val_main_v10_apply, val_main_v9_apply]
  unfold lin
  refine congrArg₂ (· + ·) (Finset.sum_congr rfl fun k _ => ?_) ?_
  · exact congrArg₂ (· * ·) (congrArg x0 (funext fun a => Fin.ext (by match a with | ⟨0, _⟩ => rfl | ⟨1, _⟩ => rfl | ⟨2, _⟩ => rfl))) (congrArg x5 (funext fun a => Fin.ext (by match a with | ⟨0, _⟩ => rfl | ⟨1, _⟩ => rfl)))
  · exact congrArg x6 (funext fun a => Fin.ext (by match a with | ⟨0, _⟩ => rfl))

/-- The scale the reference computes, 1 / √1024, is the word of 0.03125. -/
theorem scale_apply (i : S_.Idx) : val_main_v13 (F := Ideal) i = scale := by
  rw [val_main_v13_apply, val_main_v12_apply, val_main_cst_0_apply, val_main_cst_apply]
  exact Cert.Consts.scale_eq

/-- The scaled scores at (n, s, k). -/
theorem score_apply (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal))
    (n : Fin 4) (s k : Fin 2048) :
    val_main_v16 (F := Ideal) x0 x1 x2 x3 x4 (ix3 n s k) = score x0 x1 x2 x3 x4 n s k := by
  rw [val_main_v16_apply, val_main_v14_apply, val_main_v15_apply, scale_apply]
  unfold score
  refine congrArg (· * scale) (Finset.sum_congr rfl fun d _ => ?_)
  refine congrArg₂ (· * ·) ?_ ?_
  · rw [show lidx_main_v14 (ix3 n s k) d = ix3 n s d from funext fun a => Fin.ext (by match a with | ⟨0, _⟩ => rfl | ⟨1, _⟩ => rfl | ⟨2, _⟩ => rfl)]
    exact q_apply x0 x1 x2 n s d
  · rw [show ridx_main_v14 (ix3 n s k) d = ix3 n k d from funext fun a => Fin.ext (by match a with | ⟨0, _⟩ => rfl | ⟨1, _⟩ => rfl | ⟨2, _⟩ => rfl)]
    exact k_apply x0 x3 x4 n k d

/-- The index of [4, 2048, 2048] over (n, s) of [4, 2048] with `k` on the reduced last axis is (n, s, k). -/
theorem lift_row (hr : S4x2048x2048.Reduces [2] S4x2048) (n : Fin 4) (s k : Fin 2048) :
    hr.lift (ix2 n s) k = ix3 n s k := by
  funext a
  apply Fin.ext
  match a with
  | ⟨0, _⟩ => rfl
  | ⟨1, _⟩ => rfl
  | ⟨2, _⟩ => rfl

/-- The row maximum the reference subtracts, at (n, s): the fold of max over the row of scores from minus infinity
    (joining it once more with minus infinity changes nothing). -/
theorem rowmax_apply (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal))
    (n : Fin 4) (s : Fin 2048) :
    val_main_v19 (F := Ideal) x0 x1 x2 x3 x4 (ix2 n s)
      = (Finset.univ : Finset (Fin 2048)).fold max negInf (fun k : Fin 2048 => score x0 x1 x2 x3 x4 n s k) := by
  have h17 : val_main_v17 (F := Ideal) x0 x1 x2 x3 x4 (ix2 n s)
      = (Finset.univ : Finset (Fin 2048)).fold max negInf (fun k : Fin 2048 => score x0 x1 x2 x3 x4 n s k) := by
    unfold val_main_v17
    refine (Host.reduce_eq_fold_single (α := Ideal .f32) (FloatOps.maximumf (F := Ideal) (φ := .f32))
      (val_main_v16 (F := Ideal) x0 x1 x2 x3 x4 : S4x2048x2048.Idx → Ideal .f32) (val_main_cst_1 (F := Ideal) : S_.Idx → Ideal .f32)
      reducesTo_S4x2048x2048_S4x2048_d2 (by decide) h_S_ (ix2 n s)).trans ?_
    exact congrArg (fun f : Fin 2048 → EReal => (Finset.univ : Finset (Fin 2048)).fold max negInf f)
      (funext fun k => (congrArg (val_main_v16 (F := Ideal) x0 x1 x2 x3 x4) (lift_row _ n s k)).trans
        (score_apply x0 x1 x2 x3 x4 n s k))
  rw [val_main_v19_apply, val_main_v18_apply, val_main_cst_2_apply, h17]
  exact max_eq_right ((Finset.le_fold_max _).2 (Or.inl le_rfl))

/-- The exponentials of the shifted scores at (n, s, k). -/
theorem expo_apply (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal))
    (n : Fin 4) (s k : Fin 2048) :
    val_main_v23 (F := Ideal) x0 x1 x2 x3 x4 (ix3 n s k)
      = Ideal.exp (score x0 x1 x2 x3 x4 n s k
          - (Finset.univ : Finset (Fin 2048)).fold max negInf (fun k' : Fin 2048 => score x0 x1 x2 x3 x4 n s k')) := by
  rw [val_main_v23_apply, val_main_v22_apply, val_main_v21_apply, val_main_v20_apply, score_apply]
  rw [show idx_main_v20 (idx_main_v21 (ix3 n s k)) = ix2 n s from funext fun a => Fin.ext (by match a with | ⟨0, _⟩ => rfl | ⟨1, _⟩ => rfl), rowmax_apply]
  rfl

/-- The attention weights at (n, s, k): the softmax of the row of scores. -/
theorem attn_apply (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal))
    (n : Fin 4) (s k : Fin 2048) :
    val_main_v27 (F := Ideal) x0 x1 x2 x3 x4 (ix3 n s k)
      = softmaxAt (fun k' : Fin 2048 => score x0 x1 x2 x3 x4 n s k') k := by
  rw [val_main_v27_apply, val_main_v26_apply, val_main_v25_apply, expo_apply]
  rw [show idx_main_v25 (idx_main_v26 (ix3 n s k)) = ix2 n s from funext fun a => Fin.ext (by match a with | ⟨0, _⟩ => rfl | ⟨1, _⟩ => rfl), val_main_v24_apply, val_main_cst_3_apply]
  unfold softmaxAt
  show Ideal.div _ (Ideal.ofBits .f32 0x00000000#32 + _) = _
  rw [Ideal.ofBits_zero_f32, zero_add]
  refine congrArg (Ideal.div _) (Finset.sum_congr rfl fun k' _ => ?_)
  rw [show idx_main_v24 (ix2 n s) k' = ix3 n s k' from funext fun a => Fin.ext (by match a with | ⟨0, _⟩ => rfl | ⟨1, _⟩ => rfl | ⟨2, _⟩ => rfl)]
  exact expo_apply x0 x1 x2 x3 x4 n s k'

/-- The attention-weighted values at (n, s, d). -/
theorem ctx_apply (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal))
    (n : Fin 4) (s : Fin 2048) (d : Fin 1024) :
    val_main_v28 (F := Ideal) x0 x1 x2 x3 x4 x5 x6 (ix3 n s d) = ctx x0 x1 x2 x3 x4 x5 x6 n s d := by
  rw [val_main_v28_apply]
  unfold ctx
  refine Finset.sum_congr rfl fun k _ => congrArg₂ (· * ·) ?_ ?_
  · rw [show lidx_main_v28 (ix3 n s d) k = ix3 n s k from funext fun a => Fin.ext (by match a with | ⟨0, _⟩ => rfl | ⟨1, _⟩ => rfl | ⟨2, _⟩ => rfl)]
    exact attn_apply x0 x1 x2 x3 x4 n s k
  · rw [show ridx_main_v28 (ix3 n s d) k = ix3 n k d from funext fun a => Fin.ext (by match a with | ⟨0, _⟩ => rfl | ⟨1, _⟩ => rfl | ⟨2, _⟩ => rfl)]
    exact v_apply x0 x5 x6 n k d

/-- The reference's result at (n, s, e). -/
theorem out_apply (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal))
    (n : Fin 4) (s : Fin 2048) (e : Fin 1024) :
    val_main_v32 (F := Ideal) x0 x1 x2 x3 x4 x5 x6 x7 x8 (ix3 n s e) = out x0 x1 x2 x3 x4 x5 x6 x7 x8 n s e := by
  rw [val_main_v32_apply, val_main_v29_apply, val_main_v31_apply, val_main_v30_apply]
  unfold out
  refine congrArg₂ (· + ·) (Finset.sum_congr rfl fun d _ => congrArg₂ (· * ·) ?_ ?_) ?_
  · rw [show lidx_main_v29 (ix3 n s e) d = ix3 n s d from funext fun a => Fin.ext (by match a with | ⟨0, _⟩ => rfl | ⟨1, _⟩ => rfl | ⟨2, _⟩ => rfl)]
    exact ctx_apply x0 x1 x2 x3 x4 x5 x6 n s d
  · exact congrArg x7 (funext fun a => Fin.ext (by match a with | ⟨0, _⟩ => rfl | ⟨1, _⟩ => rfl))
  · exact congrArg x8 (funext fun a => Fin.ext (by match a with | ⟨0, _⟩ => rfl))

/-- The reference's result array is the attention function of the arguments. -/
theorem result_eq (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) :
    val_main_v32 (F := Ideal) x0 x1 x2 x3 x4 x5 x6 x7 x8 = attention x0 x1 x2 x3 x4 x5 x6 x7 x8 := by
  funext i
  obtain ⟨n, s, e, rfl⟩ : ∃ (n : Fin 4) (s : Fin 2048) (e : Fin 1024), i = ix3 n s e := ⟨i 0, i 1, i 2, eq_ix3 i⟩
  exact out_apply x0 x1 x2 x3 x4 x5 x6 x7 x8 n s e

end Cert.ReferenceIdeal.Attn

end
-- ==== Proof.lean ====
/-
  Single-head self-attention (batch 4, 2048 positions, model width 1024), written as two tiled kernels — a fused
  query/key/value projection, then attention with the output projection — against the plain reference
    out = softmax ((x Wqᵀ + bq) (x Wkᵀ + bk)ᵀ / √1024) (x Wvᵀ + bv) Wpᵀ + bp.

  On the extended reals the two programs compute one function of the arguments (`Cert.Attn.attention`):
  * the kernel program's first region writes, block by block over an 8 × 3 grid, the product of the reshaped
    activations with the stacked transposed weights plus the stacked biases; its three column bands are the three
    projections. Its second region writes, block by block over a 4 × 4 grid, the row softmax of the scaled scores
    against the values, projected and biased. The blocks of each region tile its output array;
  * the reference computes the same sums in the same order; its scale 1 / √1024 is the kernel's literal 1/32, its
    row maximum joined once more with minus infinity is unchanged, and its row sum starts from zero.
  No law of arithmetic beyond these is used, so the precondition (finite inputs) is never opened.
  The frames: each kernel region runs its body at every grid point on whole staging buffers and writes back whole
  blocks; the host operations between them write only their own result buffers; no argument array is written.
-/
import proofs.«166768_j20882130993308_2_alg».proof.Defs
import proofs.«166768_j20882130993308_2_alg».proof.Proof.Gen.Kernel
import proofs.«166768_j20882130993308_2_alg».proof.Proof.Gen.KernelIdeal
import proofs.«166768_j20882130993308_2_alg».proof.Proof.Gen.ReferenceIdeal
import proofs.«166768_j20882130993308_2_alg».proof.Proof.Gen.Pre_finite_inputs
import proofs.«166768_j20882130993308_2_alg».proof.Proof.Gen.ReferenceIdeal.Run
import proofs.«166768_j20882130993308_2_alg».proof.Proof.Gen.ReferenceIdeal.Read
import proofs.«166768_j20882130993308_2_alg».proof.Proof.KernelFrame
import proofs.«166768_j20882130993308_2_alg».proof.Proof.KernelIdealFrame
import proofs.«166768_j20882130993308_2_alg».proof.Proof.KernelValue
import proofs.«166768_j20882130993308_2_alg».proof.Proof.Reference

noncomputable section

namespace Cert.Proof

open Idealize.ShloMosaic Idealize.ShloMosaic.TcCoe Idealize.SL.Sem

/-- The word-level kernel program runs to the end, faults nowhere and leaves its arguments unchanged. -/
theorem frame_kernel : Cert.frame_Kernel := fun m ρ _ => Cert.Kernel.Frame.frame m ρ

/-- So does the kernel program read on the extended reals. -/
theorem frame_kernelIdeal : Cert.frame_KernelIdeal := fun m ρ _ => Cert.KernelIdeal.Frame.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals the kernel program ends with its result array at the attention function of its arguments,
    and the reference ends with its result array at the same function of arguments that agree. -/
theorem algebraic : Cert.algebraic_KernelIdeal_ReferenceIdeal := by
  intro m ρ m' ρ' _ hagree
  refine ⟨_, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.ReferenceIdeal.Attn.result_eq,
    (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
